-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10x128 : Shape := ⟨2, ![10, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_

variable [Facts]

def fn_part1 {F : FTy → Type} [FloatOps F] (main_arg4 : FVec F S10x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S10x128 .f32 := Host.absf main_arg4
  let main_cst_6 : FVec F S_ .f32 := constant S_ .f32 0x7F800000#32
  let main_v20 : FVec F S10x128 .f32 := broadcastInDim S10x128 ![] bcast_S_S10x128 main_cst_6
  let main_v21 : IVec S10x128 1 := cmpf .olt main_v19 main_v20
  let main_c_7 : IVec S_ 1 := constantI S_ 1 1#1
  let main_v22 : IVec S_ 1 := (fun x v => Host.reduce IntOp.andi x v reducesTo_S10x128_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128 .f32) (main_arg4 : FVec F S10x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10x128 : Shape := ⟨2, ![10, 128]⟩
abbrev S1x128 : Shape := ⟨2, ![1, 128]⟩
abbrev S10000x10 : Shape := ⟨2, ![10000, 10]⟩
abbrev S200x10000 : Shape := ⟨2, ![200, 10000]⟩
abbrev S400x128 : Shape := ⟨2, ![400, 128]⟩
abbrev S400x10 : Shape := ⟨2, ![400, 10]⟩
abbrev S200x128 : Shape := ⟨2, ![200, 128]⟩
abbrev S200x10 : Shape := ⟨2, ![200, 10]⟩
abbrev S200 : Shape := ⟨1, ![200]⟩
abbrev S200x1 : Shape := ⟨2, ![200, 1]⟩
abbrev S1x10 : Shape := ⟨2, ![1, 10]⟩

abbrev nBuf : Space → Nat
  | .hbm => 8
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10x128, .f32⟩
  | .hbm, ⟨5, _⟩ => ⟨S1x128, .f32⟩
  | .hbm, ⟨6, _⟩ => ⟨S10000x128, .f32⟩
  | .hbm, ⟨7, _⟩ => ⟨S10000x10, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S1x128, .f32⟩
  | .local _ .vmem, ⟨7, _⟩ => ⟨S10x128, .f32⟩
  | .local _ .vmem, ⟨8, _⟩ => ⟨S400x128, .f32⟩
  | .local _ .vmem, ⟨9, _⟩ => ⟨S400x128, .f32⟩
  | .local _ .vmem, ⟨10, _⟩ => ⟨S400x10, .f32⟩
  | .local _ .vmem, ⟨11, _⟩ => ⟨S400x10, .f32⟩
  | .local _ .vmem, ⟨12, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S10x128_S10x128_0_0 : ∀ a, (![0, 0] : Fin 2 → Nat) a + S10x128.size a ≤ S10x128.size a
  h_S10x128 : 0 < S10x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  broadcasts_S1x128_S200x128 : S1x128.Broadcasts S200x128
  inb_S400x128_S200x128_0_0 : ∀ a, (![0, 0] : Fin 2 → Nat) a + S200x128.size a ≤ S400x128.size a
  h_S200x128 : 0 < S200x128.numel
  reduces_S200x128_S200 : S200x128.Reduces [1] S200
  shapeCasts_S200_S200x1 : S200.ShapeCasts S200x1
  broadcasts_S200x1_S200x10 : S200x1.Broadcasts S200x10
  broadcasts_S1x10_S200x10 : S1x10.Broadcasts S200x10
  reduces_S200x10_S200 : S200x10.Reduces [1] S200
  inb_S400x10_S200x10_0_0 : ∀ a, (![0, 0] : Fin 2 → Nat) a + S200x10.size a ≤ S400x10.size a
  h_S200x10 : 0 < S200x10.numel
  inb_S400x128_S200x128_200_0 : ∀ a, (![200, 0] : Fin 2 → Nat) a + S200x128.size a ≤ S400x128.size a
  inb_S400x10_S200x10_200_0 : ∀ a, (![200, 0] : Fin 2 → Nat) a + S200x10.size a ≤ S400x10.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S10x128_S200x10_1_1_0_0_n_n_wf : DotDims.WF S200x128 S10x128 S200x10 [1] [1] [0] [0] [] []
  dot_S1x128_S10x128_S1x10_1_1_0_0_n_n_wf : DotDims.WF S1x128 S10x128 S1x10 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x128.size a ≤ S10x128.size a
  hwx0_5 : ∀ i : grid0.Coords, EltTy.bits .f32 = 32 ∨ (Rect.block (s := S10x128) S10x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x10.size a ≤ S10000x10.size a
  hwx0_7 : ∀ i : grid0.Coords, EltTy.bits .f32 = 32 ∨ (Rect.block (s := S10000x10) S400x10.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S10x128_S200x10_1_1_0_0_n_n : DotDims S200x128 S10x128 S200x10 where
  lhsContracting := [1]
  rhsContracting := [1]
  lhsNonContracting := [0]
  rhsNonContracting := [0]
  lhsBatch := []
  rhsBatch := []
  wf := dot_S200x128_S10x128_S200x10_1_1_0_0_n_n_wf
def dot_S1x128_S10x128_S1x10_1_1_0_0_n_n : DotDims S1x128 S10x128 S1x10 where
  lhsContracting := [1]
  rhsContracting := [1]
  lhsNonContracting := [0]
  rhsNonContracting := [0]
  lhsBatch := []
  rhsBatch := []
  wf := dot_S1x128_S10x128_S1x10_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S10x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S400x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10x128 : Shape := ⟨2, ![10, 128]⟩
abbrev S1x128 : Shape := ⟨2, ![1, 128]⟩
abbrev S10000x1x128 : Shape := ⟨3, ![10000, 1, 128]⟩
abbrev S1x10x128 : Shape := ⟨3, ![1, 10, 128]⟩
abbrev S10000x10x128 : Shape := ⟨3, ![10000, 10, 128]⟩
abbrev S_ : Shape := ⟨0, ![]⟩
abbrev S10000x10 : Shape := ⟨2, ![10000, 10]⟩
abbrev S10000 : Shape := ⟨1, ![10000]⟩
abbrev S10000x1 : Shape := ⟨2, ![10000, 1]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10x128, .f32⟩
  | .hbm, ⟨5, _⟩ => ⟨S10000x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x1x128, .f32⟩
  | .hbm, ⟨11, _⟩ => ⟨S1x10x128, .f32⟩
  | .hbm, ⟨12, _⟩ => ⟨S10000x10x128, .f32⟩
  | .hbm, ⟨13, _⟩ => ⟨S10000x10x128, .f32⟩
  | .hbm, ⟨14, _⟩ => ⟨S10000x10x128, .f32⟩
  | .hbm, ⟨15, _⟩ => ⟨S10000x10x128, .f32⟩
  | .hbm, ⟨16, _⟩ => ⟨S_, .f32⟩
  | .hbm, ⟨17, _⟩ => ⟨S10000x10, .f32⟩
  | .hbm, ⟨18, _⟩ => ⟨S_, .f32⟩
  | .hbm, ⟨19, _⟩ => ⟨S10000x10, .f32⟩
  | .hbm, ⟨20, _⟩ => ⟨S10000x10, .f32⟩
  | .hbm, ⟨21, _⟩ => ⟨S_, .f32⟩
  | .hbm, ⟨22, _⟩ => ⟨S10000x10, .f32⟩
  | .hbm, ⟨23, _⟩ => ⟨S10000x10, .f32⟩
  | .hbm, ⟨24, _⟩ => ⟨S_, .f32⟩
  | .hbm, ⟨25, _⟩ => ⟨S10000x10, .f32⟩
  | .hbm, ⟨26, _⟩ => ⟨S10000x10, .f32⟩
  | .hbm, ⟨27, _⟩ => ⟨S_, .f32⟩
  | .hbm, ⟨28, _⟩ => ⟨S10000x10, .f32⟩
  | .hbm, ⟨29, _⟩ => ⟨S10000x10, .f32⟩
  | .hbm, ⟨30, _⟩ => ⟨S_, .f32⟩
  | .hbm, ⟨31, _⟩ => ⟨S10000x10, .f32⟩
  | .hbm, ⟨32, _⟩ => ⟨S10000x10, .f32⟩
  | .hbm, ⟨33, _⟩ => ⟨S_, .f32⟩
  | .hbm, ⟨34, _⟩ => ⟨S10000x10, .f32⟩
  | .hbm, ⟨35, _⟩ => ⟨S10000x10, .f32⟩
  | .hbm, ⟨36, _⟩ => ⟨S_, .f32⟩
  | .hbm, ⟨37, _⟩ => ⟨S10000, .f32⟩
  | .hbm, ⟨38, _⟩ => ⟨S10000x1, .f32⟩
  | .hbm, ⟨39, _⟩ => ⟨S10000x10, .f32⟩
  | .hbm, ⟨40, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000x128_S10000x1x128_0_2 : S10000x128.BroadcastsInDim S10000x1x128 (![0, 2] : Fin 2 → Fin S10000x1x128.rank)
  bcast_S10x128_S1x10x128_1_2 : S10x128.BroadcastsInDim S1x10x128 (![1, 2] : Fin 2 → Fin S1x10x128.rank)
  bcast_S10000x1x128_S10000x10x128_0_1_2 : S10000x1x128.BroadcastsInDim S10000x10x128 (![0, 1, 2] : Fin 3 → Fin S10000x10x128.rank)
  bcast_S1x10x128_S10000x10x128_0_1_2 : S1x10x128.BroadcastsInDim S10000x10x128 (![0, 1, 2] : Fin 3 → Fin S10000x10x128.rank)
  reducesTo_S10000x10x128_S10000x10_d2 : S10000x10x128.ReducesTo [2] S10000x10
  h_S_ : 0 < S_.numel
  bcast_S_S10000x10 : S_.BroadcastsInDim S10000x10 (![] : Fin 0 → Fin S10000x10.rank)
  reducesTo_S10000x10_S10000_d1 : S10000x10.ReducesTo [1] S10000
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSharedFrame.lean ====
/-
  The frame run of a one-region TensorCore program whose windows may stand on ONE array.

  When two input windows read blocks of the same array, the array's buffer cannot be handed to each
  window at the full share: it is dealt among them. This file states the frame run for that case.
  The certificate supplies, besides the body obligation, HOW the distinct buffers behind the arrays,
  each whole at the full share at the region's entry contents, make the proof data's arrays at entry
  (`hsplit`), and an invariant that starts from, and gives back, the core's scoped buffers that are
  no staging buffer (`hin`, `hout`). The conclusion is the library's frame post: every window's
  array ends at what the proof data compute, every other unscoped buffer as the region found it.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run from an explicit deal of the arrays' buffers among the windows (`hsplit`): the
    windows need not stand on distinct arrays. The invariant is the certificate's, between the
    scoped buffers that are no staging buffer before the first point and the same after the last. -/
theorem θ_run_frame_of_split
    (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by
      iintro H
      isplitr
      · iempintro
      iexact H)
    (fun c => (show _ ⊢ (scopedRest (cfgs p).spec c : sProp 𝕄) from by iintro ⟨-, H⟩; iexact H).trans (hin c))
    (fun c => (hout c).trans (by
      iintro H
      isplitr
      · iempintro
      iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Idealize.ShloMosaic.Pipeline

end
-- ==== Proof.BitsTriples.lean ====
/-
  The kernel body of `the kernel as printed` as a Hoare triple, on any whole staging buffers.

  The body reads x, W, two half-blocks of adj (200 rows each), the bias row and the centres, keeps the support
  matrix x·W in a scratch buffer, and writes one block of 400 rows of h and of q, each in two halves. At the first grid
  point it computes the support matrix and stores it whole into the scratch; at every later point the scratch still
  holds it. Either way both half-blocks are computed from the scratch's contents, so what the output buffers end with
  is one function of the input blocks and the support matrix: `outH` and `outQ`, the contents left by the two
  half-block stores. The two triples below say so, one per branch of the body's conditional.
-/
import proofs.«179142_g25975962206949_cont_8to1_1416_17_alg».proof.Proof.Gen.Kernel.Launch
import proofs.«179142_g25975962206949_cont_8to1_1416_17_alg».proof.Proof.Gen.Kernel.Skeleton
import proofs.«179142_g25975962206949_cont_8to1_1416_17_alg».proof.Proof.Gen.Kernel.Points
import proofs.«179142_g25975962206949_cont_8to1_1416_17_alg».proof.Proof.LibSharedFrame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what its stores leave -/

/-- The two half-blocks of an output block of 400 rows: rows 0–199 and rows 200–399. -/
abbrev rTopH : Rect S400x128 := Rect.unit (s := S400x128) ![0, 0] S200x128.size inb_S400x128_S200x128_0_0
abbrev rBotH : Rect S400x128 := Rect.unit (s := S400x128) ![200, 0] S200x128.size inb_S400x128_S200x128_200_0
abbrev rTopQ : Rect S400x10 := Rect.unit (s := S400x10) ![0, 0] S200x10.size inb_S400x10_S200x10_0_0
abbrev rBotQ : Rect S400x10 := Rect.unit (s := S400x10) ![200, 0] S200x10.size inb_S400x10_S200x10_200_0

theorem hz2 : (![0, 0] : Fin 2 → ℕ) = fun _ => 0 := by funext a; fin_cases a <;> rfl

/-- The exponent of the Student-t kernel as the body carries it from its first half to its second. -/
def expo : F .f32 := Scalar.ofBits .f32 0x3F99999A#32

/-- The block of h the body leaves: rows 0–199 from the first half-block of adj, rows 200–399 from the second,
    each the half-block times the support matrix `S` plus the bias row `b`. -/
def outH (S : Vec F S10000x128 .f32) (b : Vec F S1x128 .f32) (a2 a3 : Vec F S200x10000 .f32) : Vec F S400x128 .f32 :=
  View.canon [⟨rBotH, k0_pay7 S (k0_pay3 b) a3⟩, ⟨rTopH, k0_pay4 S b a2⟩]

/-- The block of q the body leaves, half by half likewise: each row's Student-t weights divided by their sum. -/
def outQ (S : Vec F S10000x128 .f32) (mu : Vec F S10x128 .f32) (b : Vec F S1x128 .f32) (a2 a3 : Vec F S200x10000 .f32) : Vec F S400x10 .f32 :=
  View.canon [⟨rBotQ, k0_pay1 (k0_pay8 S mu (k0_pay3 b) a3) (k0_pay9 S mu (k0_pay3 b) a3)⟩, ⟨rTopQ, k0_pay6 (k0_pay5 S mu b a2) expo⟩]

/-- The two half-block stores tile the block of h, -/
theorem coverH (p0 p1 : Vec F S200x128 .f32) (y : S400x128.Idx) :
    ∃ pc ∈ ([⟨rBotH, p0⟩, ⟨rTopH, p1⟩] : List (View.Piece (Elt F) S400x128 .f32)), y ∈ pc.1.set :=
  View.cover_of_tiledL [⟨rBotH, p0⟩, ⟨rTopH, p1⟩] S200x128.size (by sl_kernel_rfl) y

/-- and the block of q. -/
theorem coverQ (p0 p1 : Vec F S200x10 .f32) (y : S400x10.Idx) :
    ∃ pc ∈ ([⟨rBotQ, p0⟩, ⟨rTopQ, p1⟩] : List (View.Piece (Elt F) S400x10 .f32)), y ∈ pc.1.set :=
  View.cover_of_tiledL [⟨rBotQ, p0⟩, ⟨rTopQ, p1⟩] S200x10.size (by sl_kernel_rfl) y

/-- One store through the whole scratch covers it. -/
theorem coverS (p : Vec F S10000x128 .f32) (y : S10000x128.Idx) :
    ∃ pc ∈ ([⟨Rect.unit (s := S10000x128) ![0, 0] S10000x128.size inb_S10000x128_S10000x128_0_0, p⟩] : List (View.Piece (Elt F) S10000x128 .f32)), y ∈ pc.1.set :=
  ⟨_, List.mem_singleton_self _, View.mem_set_unit_zero hz2 inb_S10000x128_S10000x128_0_0 y⟩

/-- The branch condition of the body: the grid coordinate is zero. -/
abbrev isFirst (i : grid0.Coords) : Prop := (Scalar.cmpi .ne (Scalar.extui (Scalar.cmpi .eq (BitVec.ofNat 32 (i 0).val) 0#32)) 0#32) = 1#1

set_option maxHeartbeats 4000000 in
/-- At the first grid point the body computes the support matrix x·W into its scratch, then both half-blocks from it. -/
theorem sound_first (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S1x128 .f32) (harg5 : arg5.IsWhole) (arg6 : Memref sig .tc .vmem S10x128 .f32) (harg6 : arg6.IsWhole)
    (arg7 : Memref sig .tc .vmem S400x128 .f32) (harg7 : arg7.IsWhole) (arg8 : Memref sig .tc .vmem S400x10 .f32) (harg8 : arg8.IsWhole)
    (arg9 : Memref sig .tc .vmem S10000x128 .f32) (harg9 : arg9.IsWhole)
    (hc : isFirst i)
    (x : Vec F S10000x128 .f32) (w : Vec F S128x128 .f32) (a2 a3 : Vec F S200x10000 .f32) (b : Vec F S1x128 .f32) (mu : Vec F S10x128 .f32)
    (K : PUnit → sProp 𝕄) :
    iprop(owns (c : Thread nD τ) arg1 fullShare x ∗ owns (c : Thread nD τ) arg2 fullShare w ∗ owns (c : Thread nD τ) arg3 fullShare a2
        ∗ owns (c : Thread nD τ) arg4 fullShare a3 ∗ owns (c : Thread nD τ) arg5 fullShare b ∗ owns (c : Thread nD τ) arg6 fullShare mu
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x ∗ owns (c : Thread nD τ) arg2 fullShare w ∗ owns (c : Thread nD τ) arg3 fullShare a2
        ∗ owns (c : Thread nD τ) arg4 fullShare a3 ∗ owns (c : Thread nD τ) arg5 fullShare b ∗ owns (c : Thread nD τ) arg6 fullShare mu
            ∗ owns (c : Thread nD τ) arg7 fullShare (outH (k0_pay2 x w) b a2 a3) ∗ owns (c : Thread nD τ) arg8 fullShare (outQ (k0_pay2 x w) mu b a2 a3)
            ∗ owns (c : Thread nD τ) arg9 fullShare (k0_pay2 x w)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (coverH _ _)]
    unfold outH
    sl_unfold_run_names
    simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]
  isplitl [H8]
  · iexists _; isplitr
    swap; · iexact H8
    ipureintro
    rw [View.read_writes_eq_canon _ _ _ (coverQ _ _)]
    unfold outQ expo
    sl_unfold_run_names
    simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]
    try rfl
  iexists _; isplitr
  swap; · iexact H9
  ipureintro
  sl_unfold_run_names
  rw [View.read_writes_eq_canon _ _ _ (coverS _), View.canon_unit_zero (S := S10000x128) hz2]
  simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]

set_option maxHeartbeats 4000000 in
/-- At every later grid point the scratch still holds the support matrix `S`, and the body computes both half-blocks
    from it, leaving it in place. -/
theorem sound_later (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S1x128 .f32) (harg5 : arg5.IsWhole) (arg6 : Memref sig .tc .vmem S10x128 .f32) (harg6 : arg6.IsWhole)
    (arg7 : Memref sig .tc .vmem S400x128 .f32) (harg7 : arg7.IsWhole) (arg8 : Memref sig .tc .vmem S400x10 .f32) (harg8 : arg8.IsWhole)
    (arg9 : Memref sig .tc .vmem S10000x128 .f32) (harg9 : arg9.IsWhole)
    (hc : ¬ isFirst i)
    (x : Vec F S10000x128 .f32) (w : Vec F S128x128 .f32) (a2 a3 : Vec F S200x10000 .f32) (b : Vec F S1x128 .f32) (mu : Vec F S10x128 .f32)
    (S : Vec F S10000x128 .f32) (K : PUnit → sProp 𝕄) :
    iprop(owns (c : Thread nD τ) arg1 fullShare x ∗ owns (c : Thread nD τ) arg2 fullShare w ∗ owns (c : Thread nD τ) arg3 fullShare a2
        ∗ owns (c : Thread nD τ) arg4 fullShare a3 ∗ owns (c : Thread nD τ) arg5 fullShare b ∗ owns (c : Thread nD τ) arg6 fullShare mu
        ∗ (∃ d, owns (c : Thread nD τ) arg7 fullShare d) ∗ (∃ d, owns (c : Thread nD τ) arg8 fullShare d) ∗ owns (c : Thread nD τ) arg9 fullShare S
        ∗ (iprop(owns (c : Thread nD τ) arg1 fullShare x ∗ owns (c : Thread nD τ) arg2 fullShare w ∗ owns (c : Thread nD τ) arg3 fullShare a2
        ∗ owns (c : Thread nD τ) arg4 fullShare a3 ∗ owns (c : Thread nD τ) arg5 fullShare b ∗ owns (c : Thread nD τ) arg6 fullShare mu
            ∗ owns (c : Thread nD τ) arg7 fullShare (outH S b a2 a3) ∗ owns (c : Thread nD τ) arg8 fullShare (outQ S mu b a2 a3)
            ∗ owns (c : Thread nD τ) arg9 fullShare S) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf1 hf2 hf3 hf4 hf5 hf6 hf9
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (coverH _ _)]
    unfold outH
    sl_unfold_run_names
    simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]
  isplitl [H8]
  · iexists _; isplitr
    swap; · iexact H8
    ipureintro
    rw [View.read_writes_eq_canon _ _ _ (coverQ _ _)]
    unfold outQ expo
    sl_unfold_run_names
    simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]
    try rfl
  iexists f9; isplitr; · ipureintro; rfl
  iexact H9

end Cert.Kernel.Body

end
-- ==== Proof.BitsFrame.lean ====
/-
  The frame run of the kernel as printed: @main reshapes the bias vector to a row, then launches the one kernel region on a
  grid of 25 points.

  The proof data say what each window's staging buffer holds after the body at each point: an input window its block
  of the array; the two output windows the blocks of h and q the body's triples name. The region's invariant tracks
  the scratch: anything before the first point, the support matrix x·W from then on. The two windows that read adj
  stand on ONE array, so its buffer is dealt to them at one half share each; every other array is held at the full
  share. The launch is the frame run for windows that may share an array.
-/
import proofs.«179142_g25975962206949_cont_8to1_1416_17_alg».proof.Proof.Gen.Kernel.Launch
import proofs.«179142_g25975962206949_cont_8to1_1416_17_alg».proof.Proof.Gen.Kernel.Skeleton
import proofs.«179142_g25975962206949_cont_8to1_1416_17_alg».proof.Proof.Gen.Kernel.Points
import proofs.«179142_g25975962206949_cont_8to1_1416_17_alg».proof.Proof.LibSharedFrame
import proofs.«179142_g25975962206949_cont_8to1_1416_17_alg».proof.Proof.BitsTriples
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the one host operation before it (the bias
    vector reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the argument arrays: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The support matrix and the invariant -/

/-- The first grid point. -/
abbrev t0 : Fin cfg0.N := ⟨0, by decide⟩

/-- The support matrix x·W, as the body computes it at the first grid point from the whole arrays x and W. -/
def supp (c : Dev nD) : Vec F S10000x128 .f32 := k0_pay2 (iblk m c 0 t0) (iblk m c 1 t0)

/-- The scratch operand: a whole scoped buffer of the kernel's own. -/
abbrev scM : Memref sig .tc .vmem S10000x128 .f32 := Memref.whole cc0_scratch0

/-- The core's scoped buffers that are no staging buffer are the scratch, at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The region's invariant before position `n`: before the first point the scratch holds anything; from then on it
    holds the support matrix. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (supp m c)

theorem PhiS_pos (c : Dev nD) (n : ℕ) (hn : n ≠ 0) : PhiS m c n = owns (c : Thread nD τ) scM fullShare (supp m c) := by
  cases n with
  | zero => exact absurd rfl hn
  | succ n => rfl

/-! ## The proof data -/

/-- The proof data of the one pipeline on core `c`. After the body at point `t` each input's buffer holds its block;
    the outputs' hold the two half-blocks computed from the support matrix, the bias row, the centres and the two
    half-blocks of adj. The two windows on adj hold its buffer at one half share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (supp m c) (iblk m c 4 t) (iblk m c 2 t) (iblk m c 3 t)
    | ⟨7, _⟩ => outQ (supp m c) (iblk m c 5 t) (iblk m c 4 t) (iblk m c 2 t) (iblk m c 3 t)
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (supp m c) (iblk m c 4 t) (iblk m c 2 t) (iblk m c 3 t) := by dsimp only [dats]
theorem after7 (c : Dev nD) (t : Fin cfg0.N) : (dats m 0 c).after 7 t = outQ (supp m c) (iblk m c 5 t) (iblk m c 4 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The branch condition holds at the first grid point only. -/
theorem isFirst_iff : ∀ t : Fin cfg0.N, isFirst (grid0.coords t) ↔ t.val = 0 :=
  (by decide +kernel : ∀ t : Fin grid0.N, isFirst (grid0.coords t) ↔ t.val = 0)

set_option maxHeartbeats 1600000 in
/-- The body at any point: the inputs' buffers hold their blocks; at the first point the scratch holds anything and
    the body fills it, at a later point it holds the support matrix and the body leaves it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl,
    after0, after1, after2, after3, after4, after5, after6, after7]
  rw [show PhiS m c (t.val + 1) = owns (c : Thread nD τ) scM fullShare (supp m c) from rfl]
  by_cases hz : t.val = 0
  · obtain rfl : t = t0 := Fin.ext hz
    rw [show PhiS m c (t0 : Fin cfg0.N).val = Pipeline.scopedRest (Ix := Unit) (Name := ℕ) (U := UR sig nD τ) (Lvl := ℕ) (Val := Elt F) spec0 c from rfl, scoped_eq]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ _ _ _ _ _ _ _ _ _ _ _ _ _ _ _ _ _ _ _ ((isFirst_iff t0).mpr rfl)
      (iblk m c 0 t0) (iblk m c 1 t0) (iblk m c 2 t0) (iblk m c 3 t0) (iblk m c 4 t0) (iblk m c 5 t0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ _ _ _ _ _ _ _ _ _ _ _ _ _ _ _ _ _ _ _ (fun h => hz ((isFirst_iff t).mp h))
      (iblk m c 0 t) (iblk m c 1 t) (iblk m c 2 t) (iblk m c 3 t) (iblk m c 4 t) (iblk m c 5 t) (supp m c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch: the arrays' buffers dealt among the windows, and the invariant's two ends -/

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl]
  exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scoped_eq]
  iintro H; iexists _; iexact H

/-- The distinct buffers behind the windows' arrays, one by one: x, W, adj, the bias row, the centres, h and q. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2) ∗ (((c : Thread nD τ).loc main_arg1) ↦{fullShare} V m c main_arg1) ∗ (((c : Thread nD τ).loc main_v0) ↦{fullShare} V m c main_v0)
          ∗ (((c : Thread nD τ).loc main_arg4) ↦{fullShare} V m c main_arg4) ∗ (((c : Thread nD τ).loc main_v1_0) ↦{fullShare} V m c main_v1_0) ∗ (((c : Thread nD τ).loc main_v1_1) ↦{fullShare} V m c main_v1_1)) :=
  Idealize.SL.BI.bigSep_eq_bigSepL_of_eq [main_arg0, main_arg2, main_arg1, main_v0, main_arg4, main_v1_0, main_v1_1] (by decide) (by decide) _

/-- The buffers behind the windows' arrays, each whole at the full share, make the proof data's arrays at entry: the
    buffer of adj is split into two half shares, one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  beta_reduce
  rw [(arr_whole0 0).set_eq_univ, (arr_whole0 1).set_eq_univ, (arr_whole0 2).set_eq_univ,
    (arr_whole0 4).set_eq_univ, (arr_whole0 5).set_eq_univ, (arr_whole0 6).set_eq_univ, (arr_whole0 7).set_eq_univ]
  iintro ⟨H0, H2, H1, Hv0, H4, Ho0, Ho1⟩
  ihave H1' := (pointsTo_share (PosShare.mem_left_op_right fullShare)).1 $$ H1
  icases H1' with ⟨H1a, H1b⟩
  isplitl [H0]; · iexact H0
  isplitl [H2]; · iexact H2
  isplitl [H1a]; · iexact H1a
  isplitl [H1b]; · iexact H1b
  isplitl [Hv0]; · iexact Hv0
  isplitl [H4]; · iexact H4
  isplitl [Ho0]; · iexact Ho0
  iexact Ho1

/-! ## The run and the frame -/

set_option backward.isDefEq.respectTransparency.types false in
/-- Every weakly fair execution of @main terminates; every window's array ends at what the proof data compute and every
    other unscoped buffer as the region found it. -/
theorem run_main : θ_run defs (onTc (τ := τ) (main (F := F))) (s₀ m ρ) (Pipeline.FramePost cfgs (dats m) 0 (V m)) :=
  Pipeline.θ_run_frame_of_split cfgs (dats m) (0 : Fin 1) cellOf_inj winFacts₀0 defs₀ Variants.none m ρ main
    (fun c => (body_obligation m c).loose) block_pos0 arr_whole0 stage_whole0 (fun _ _ => rfl) (V m) (hmain m Variants.none)
    (hsplit m) (hin m) (hout m)

/-- The argument arrays end unchanged: four are inputs of the pipeline, the bias vector bypasses it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 5).trans (((dats m 0 c).arrAt_in 5 rfl _).trans ((A_eq m c 5).trans (V_main_arg4 m c)))⟩) (run_main m ρ)

end Cert.Kernel.Body

end
-- ==== Proof.IdealTriples.lean ====
/-
  The kernel body of `the idealized kernel` as a Hoare triple, on any whole staging buffers.

  The body reads x, W, two half-blocks of adj (200 rows each), the bias row and the centres, keeps the support
  matrix x·W in a scratch buffer, and writes one block of 400 rows of h and of q, each in two halves. At the first grid
  point it computes the support matrix and stores it whole into the scratch; at every later point the scratch still
  holds it. Either way both half-blocks are computed from the scratch's contents, so what the output buffers end with
  is one function of the input blocks and the support matrix: `outH` and `outQ`, the contents left by the two
  half-block stores. The two triples below say so, one per branch of the body's conditional.
-/
import proofs.«179142_g25975962206949_cont_8to1_1416_17_alg».proof.Proof.Gen.KernelIdeal.Launch
import proofs.«179142_g25975962206949_cont_8to1_1416_17_alg».proof.Proof.Gen.KernelIdeal.Skeleton
import proofs.«179142_g25975962206949_cont_8to1_1416_17_alg».proof.Proof.Gen.KernelIdeal.Points
import proofs.«179142_g25975962206949_cont_8to1_1416_17_alg».proof.Proof.LibSharedFrame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what its stores leave -/

/-- The two half-blocks of an output block of 400 rows: rows 0–199 and rows 200–399. -/
abbrev rTopH : Rect S400x128 := Rect.unit (s := S400x128) ![0, 0] S200x128.size inb_S400x128_S200x128_0_0
abbrev rBotH : Rect S400x128 := Rect.unit (s := S400x128) ![200, 0] S200x128.size inb_S400x128_S200x128_200_0
abbrev rTopQ : Rect S400x10 := Rect.unit (s := S400x10) ![0, 0] S200x10.size inb_S400x10_S200x10_0_0
abbrev rBotQ : Rect S400x10 := Rect.unit (s := S400x10) ![200, 0] S200x10.size inb_S400x10_S200x10_200_0

theorem hz2 : (![0, 0] : Fin 2 → ℕ) = fun _ => 0 := by funext a; fin_cases a <;> rfl

/-- The exponent of the Student-t kernel as the body carries it from its first half to its second. -/
def expo : F .f32 := Scalar.ofBits .f32 0x3F99999A#32

/-- The block of h the body leaves: rows 0–199 from the first half-block of adj, rows 200–399 from the second,
    each the half-block times the support matrix `S` plus the bias row `b`. -/
def outH (S : Vec F S10000x128 .f32) (b : Vec F S1x128 .f32) (a2 a3 : Vec F S200x10000 .f32) : Vec F S400x128 .f32 :=
  View.canon [⟨rBotH, k0_pay7 S (k0_pay3 b) a3⟩, ⟨rTopH, k0_pay4 S b a2⟩]

/-- The block of q the body leaves, half by half likewise: each row's Student-t weights divided by their sum. -/
def outQ (S : Vec F S10000x128 .f32) (mu : Vec F S10x128 .f32) (b : Vec F S1x128 .f32) (a2 a3 : Vec F S200x10000 .f32) : Vec F S400x10 .f32 :=
  View.canon [⟨rBotQ, k0_pay1 (k0_pay8 S mu (k0_pay3 b) a3) (k0_pay9 S mu (k0_pay3 b) a3)⟩, ⟨rTopQ, k0_pay6 (k0_pay5 S mu b a2) expo⟩]

/-- The two half-block stores tile the block of h, -/
theorem coverH (p0 p1 : Vec F S200x128 .f32) (y : S400x128.Idx) :
    ∃ pc ∈ ([⟨rBotH, p0⟩, ⟨rTopH, p1⟩] : List (View.Piece (Elt F) S400x128 .f32)), y ∈ pc.1.set :=
  View.cover_of_tiledL [⟨rBotH, p0⟩, ⟨rTopH, p1⟩] S200x128.size (by sl_kernel_rfl) y

/-- and the block of q. -/
theorem coverQ (p0 p1 : Vec F S200x10 .f32) (y : S400x10.Idx) :
    ∃ pc ∈ ([⟨rBotQ, p0⟩, ⟨rTopQ, p1⟩] : List (View.Piece (Elt F) S400x10 .f32)), y ∈ pc.1.set :=
  View.cover_of_tiledL [⟨rBotQ, p0⟩, ⟨rTopQ, p1⟩] S200x10.size (by sl_kernel_rfl) y

/-- One store through the whole scratch covers it. -/
theorem coverS (p : Vec F S10000x128 .f32) (y : S10000x128.Idx) :
    ∃ pc ∈ ([⟨Rect.unit (s := S10000x128) ![0, 0] S10000x128.size inb_S10000x128_S10000x128_0_0, p⟩] : List (View.Piece (Elt F) S10000x128 .f32)), y ∈ pc.1.set :=
  ⟨_, List.mem_singleton_self _, View.mem_set_unit_zero hz2 inb_S10000x128_S10000x128_0_0 y⟩

/-- The branch condition of the body: the grid coordinate is zero. -/
abbrev isFirst (i : grid0.Coords) : Prop := (Scalar.cmpi .ne (Scalar.extui (Scalar.cmpi .eq (BitVec.ofNat 32 (i 0).val) 0#32)) 0#32) = 1#1

set_option maxHeartbeats 4000000 in
/-- At the first grid point the body computes the support matrix x·W into its scratch, then both half-blocks from it. -/
theorem sound_first (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S1x128 .f32) (harg5 : arg5.IsWhole) (arg6 : Memref sig .tc .vmem S10x128 .f32) (harg6 : arg6.IsWhole)
    (arg7 : Memref sig .tc .vmem S400x128 .f32) (harg7 : arg7.IsWhole) (arg8 : Memref sig .tc .vmem S400x10 .f32) (harg8 : arg8.IsWhole)
    (arg9 : Memref sig .tc .vmem S10000x128 .f32) (harg9 : arg9.IsWhole)
    (hc : isFirst i)
    (x : Vec F S10000x128 .f32) (w : Vec F S128x128 .f32) (a2 a3 : Vec F S200x10000 .f32) (b : Vec F S1x128 .f32) (mu : Vec F S10x128 .f32)
    (K : PUnit → sProp 𝕄) :
    iprop(owns (c : Thread nD τ) arg1 fullShare x ∗ owns (c : Thread nD τ) arg2 fullShare w ∗ owns (c : Thread nD τ) arg3 fullShare a2
        ∗ owns (c : Thread nD τ) arg4 fullShare a3 ∗ owns (c : Thread nD τ) arg5 fullShare b ∗ owns (c : Thread nD τ) arg6 fullShare mu
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x ∗ owns (c : Thread nD τ) arg2 fullShare w ∗ owns (c : Thread nD τ) arg3 fullShare a2
        ∗ owns (c : Thread nD τ) arg4 fullShare a3 ∗ owns (c : Thread nD τ) arg5 fullShare b ∗ owns (c : Thread nD τ) arg6 fullShare mu
            ∗ owns (c : Thread nD τ) arg7 fullShare (outH (k0_pay2 x w) b a2 a3) ∗ owns (c : Thread nD τ) arg8 fullShare (outQ (k0_pay2 x w) mu b a2 a3)
            ∗ owns (c : Thread nD τ) arg9 fullShare (k0_pay2 x w)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (coverH _ _)]
    unfold outH
    sl_unfold_run_names
    simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]
  isplitl [H8]
  · iexists _; isplitr
    swap; · iexact H8
    ipureintro
    rw [View.read_writes_eq_canon _ _ _ (coverQ _ _)]
    unfold outQ expo
    sl_unfold_run_names
    simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]
    try rfl
  iexists _; isplitr
  swap; · iexact H9
  ipureintro
  sl_unfold_run_names
  rw [View.read_writes_eq_canon _ _ _ (coverS _), View.canon_unit_zero (S := S10000x128) hz2]
  simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]

set_option maxHeartbeats 4000000 in
/-- At every later grid point the scratch still holds the support matrix `S`, and the body computes both half-blocks
    from it, leaving it in place. -/
theorem sound_later (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S1x128 .f32) (harg5 : arg5.IsWhole) (arg6 : Memref sig .tc .vmem S10x128 .f32) (harg6 : arg6.IsWhole)
    (arg7 : Memref sig .tc .vmem S400x128 .f32) (harg7 : arg7.IsWhole) (arg8 : Memref sig .tc .vmem S400x10 .f32) (harg8 : arg8.IsWhole)
    (arg9 : Memref sig .tc .vmem S10000x128 .f32) (harg9 : arg9.IsWhole)
    (hc : ¬ isFirst i)
    (x : Vec F S10000x128 .f32) (w : Vec F S128x128 .f32) (a2 a3 : Vec F S200x10000 .f32) (b : Vec F S1x128 .f32) (mu : Vec F S10x128 .f32)
    (S : Vec F S10000x128 .f32) (K : PUnit → sProp 𝕄) :
    iprop(owns (c : Thread nD τ) arg1 fullShare x ∗ owns (c : Thread nD τ) arg2 fullShare w ∗ owns (c : Thread nD τ) arg3 fullShare a2
        ∗ owns (c : Thread nD τ) arg4 fullShare a3 ∗ owns (c : Thread nD τ) arg5 fullShare b ∗ owns (c : Thread nD τ) arg6 fullShare mu
        ∗ (∃ d, owns (c : Thread nD τ) arg7 fullShare d) ∗ (∃ d, owns (c : Thread nD τ) arg8 fullShare d) ∗ owns (c : Thread nD τ) arg9 fullShare S
        ∗ (iprop(owns (c : Thread nD τ) arg1 fullShare x ∗ owns (c : Thread nD τ) arg2 fullShare w ∗ owns (c : Thread nD τ) arg3 fullShare a2
        ∗ owns (c : Thread nD τ) arg4 fullShare a3 ∗ owns (c : Thread nD τ) arg5 fullShare b ∗ owns (c : Thread nD τ) arg6 fullShare mu
            ∗ owns (c : Thread nD τ) arg7 fullShare (outH S b a2 a3) ∗ owns (c : Thread nD τ) arg8 fullShare (outQ S mu b a2 a3)
            ∗ owns (c : Thread nD τ) arg9 fullShare S) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf1 hf2 hf3 hf4 hf5 hf6 hf9
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (coverH _ _)]
    unfold outH
    sl_unfold_run_names
    simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]
  isplitl [H8]
  · iexists _; isplitr
    swap; · iexact H8
    ipureintro
    rw [View.read_writes_eq_canon _ _ _ (coverQ _ _)]
    unfold outQ expo
    sl_unfold_run_names
    simp only [View.readCov_unit_zero (S := S10000x128) _ hz2, View.readAt_eq_ld, View.ld_unit_zero (S := S10000x128) hz2, View.ld_unit_zero (S := S128x128) hz2, View.ld_unit_zero (S := S1x128) hz2, View.ld_unit_zero (S := S10x128) hz2, View.ld_unit_zero (S := S200x10000) hz2]
    try rfl
  iexists f9; isplitr; · ipureintro; rfl
  iexact H9

end Cert.KernelIdeal.Body

end
-- ==== Proof.IdealFrame.lean ====
/-
  The frame run of the idealized kernel: @main reshapes the bias vector to a row, then launches the one kernel region on a
  grid of 25 points.

  The proof data say what each window's staging buffer holds after the body at each point: an input window its block
  of the array; the two output windows the blocks of h and q the body's triples name. The region's invariant tracks
  the scratch: anything before the first point, the support matrix x·W from then on. The two windows that read adj
  stand on ONE array, so its buffer is dealt to them at one half share each; every other array is held at the full
  share. The launch is the frame run for windows that may share an array.
-/
import proofs.«179142_g25975962206949_cont_8to1_1416_17_alg».proof.Proof.Gen.KernelIdeal.Launch
import proofs.«179142_g25975962206949_cont_8to1_1416_17_alg».proof.Proof.Gen.KernelIdeal.Skeleton
import proofs.«179142_g25975962206949_cont_8to1_1416_17_alg».proof.Proof.Gen.KernelIdeal.Points
import proofs.«179142_g25975962206949_cont_8to1_1416_17_alg».proof.Proof.LibSharedFrame
import proofs.«179142_g25975962206949_cont_8to1_1416_17_alg».proof.Proof.IdealTriples
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the one host operation before it (the bias
    vector reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the argument arrays: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    first
      | exact StableHlo.devRef_ne_of_ne (by decide)
      | (repeat' apply And.intro
         all_goals exact StableHlo.devRef_ne_of_ne (by decide))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The support matrix and the invariant -/

/-- The first grid point. -/
abbrev t0 : Fin cfg0.N := ⟨0, by decide⟩

/-- The support matrix x·W, as the body computes it at the first grid point from the whole arrays x and W. -/
def supp (c : Dev nD) : Vec F S10000x128 .f32 := k0_pay2 (iblk m c 0 t0) (iblk m c 1 t0)

/-- The scratch operand: a whole scoped buffer of the kernel's own. -/
abbrev scM : Memref sig .tc .vmem S10000x128 .f32 := Memref.whole cc0_scratch0

/-- The core's scoped buffers that are no staging buffer are the scratch, at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The region's invariant before position `n`: before the first point the scratch holds anything; from then on it
    holds the support matrix. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (supp m c)

theorem PhiS_pos (c : Dev nD) (n : ℕ) (hn : n ≠ 0) : PhiS m c n = owns (c : Thread nD τ) scM fullShare (supp m c) := by
  cases n with
  | zero => exact absurd rfl hn
  | succ n => rfl

/-! ## The proof data -/

/-- The proof data of the one pipeline on core `c`. After the body at point `t` each input's buffer holds its block;
    the outputs' hold the two half-blocks computed from the support matrix, the bias row, the centres and the two
    half-blocks of adj. The two windows on adj hold its buffer at one half share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (supp m c) (iblk m c 4 t) (iblk m c 2 t) (iblk m c 3 t)
    | ⟨7, _⟩ => outQ (supp m c) (iblk m c 5 t) (iblk m c 4 t) (iblk m c 2 t) (iblk m c 3 t)
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (supp m c) (iblk m c 4 t) (iblk m c 2 t) (iblk m c 3 t) := by dsimp only [dats]
theorem after7 (c : Dev nD) (t : Fin cfg0.N) : (dats m 0 c).after 7 t = outQ (supp m c) (iblk m c 5 t) (iblk m c 4 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The branch condition holds at the first grid point only. -/
theorem isFirst_iff : ∀ t : Fin cfg0.N, isFirst (grid0.coords t) ↔ t.val = 0 :=
  (by decide +kernel : ∀ t : Fin grid0.N, isFirst (grid0.coords t) ↔ t.val = 0)

set_option maxHeartbeats 1600000 in
/-- The body at any point: the inputs' buffers hold their blocks; at the first point the scratch holds anything and
    the body fills it, at a later point it holds the support matrix and the body leaves it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl,
    after0, after1, after2, after3, after4, after5, after6, after7]
  rw [show PhiS m c (t.val + 1) = owns (c : Thread nD τ) scM fullShare (supp m c) from rfl]
  by_cases hz : t.val = 0
  · obtain rfl : t = t0 := Fin.ext hz
    rw [show PhiS m c (t0 : Fin cfg0.N).val = Pipeline.scopedRest (Ix := Unit) (Name := ℕ) (U := UR sig nD τ) (Lvl := ℕ) (Val := Elt F) spec0 c from rfl, scoped_eq]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ _ _ _ _ _ _ _ _ _ _ _ _ _ _ _ _ _ _ _ ((isFirst_iff t0).mpr rfl)
      (iblk m c 0 t0) (iblk m c 1 t0) (iblk m c 2 t0) (iblk m c 3 t0) (iblk m c 4 t0) (iblk m c 5 t0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ _ _ _ _ _ _ _ _ _ _ _ _ _ _ _ _ _ _ _ (fun h => hz ((isFirst_iff t).mp h))
      (iblk m c 0 t) (iblk m c 1 t) (iblk m c 2 t) (iblk m c 3 t) (iblk m c 4 t) (iblk m c 5 t) (supp m c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch: the arrays' buffers dealt among the windows, and the invariant's two ends -/

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl]
  exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scoped_eq]
  iintro H; iexists _; iexact H

/-- The distinct buffers behind the windows' arrays, one by one: x, W, adj, the bias row, the centres, h and q. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2) ∗ (((c : Thread nD τ).loc main_arg1) ↦{fullShare} V m c main_arg1) ∗ (((c : Thread nD τ).loc main_v0) ↦{fullShare} V m c main_v0)
          ∗ (((c : Thread nD τ).loc main_arg4) ↦{fullShare} V m c main_arg4) ∗ (((c : Thread nD τ).loc main_v1_0) ↦{fullShare} V m c main_v1_0) ∗ (((c : Thread nD τ).loc main_v1_1) ↦{fullShare} V m c main_v1_1)) :=
  Idealize.SL.BI.bigSep_eq_bigSepL_of_eq [main_arg0, main_arg2, main_arg1, main_v0, main_arg4, main_v1_0, main_v1_1] (by decide) (by decide) _

/-- The buffers behind the windows' arrays, each whole at the full share, make the proof data's arrays at entry: the
    buffer of adj is split into two half shares, one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  beta_reduce
  rw [(arr_whole0 0).set_eq_univ, (arr_whole0 1).set_eq_univ, (arr_whole0 2).set_eq_univ,
    (arr_whole0 4).set_eq_univ, (arr_whole0 5).set_eq_univ, (arr_whole0 6).set_eq_univ, (arr_whole0 7).set_eq_univ]
  iintro ⟨H0, H2, H1, Hv0, H4, Ho0, Ho1⟩
  ihave H1' := (pointsTo_share (PosShare.mem_left_op_right fullShare)).1 $$ H1
  icases H1' with ⟨H1a, H1b⟩
  isplitl [H0]; · iexact H0
  isplitl [H2]; · iexact H2
  isplitl [H1a]; · iexact H1a
  isplitl [H1b]; · iexact H1b
  isplitl [Hv0]; · iexact Hv0
  isplitl [H4]; · iexact H4
  isplitl [Ho0]; · iexact Ho0
  iexact Ho1

/-! ## The run and the frame -/

set_option backward.isDefEq.respectTransparency.types false in
/-- Every weakly fair execution of @main terminates; every window's array ends at what the proof data compute and every
    other unscoped buffer as the region found it. -/
theorem run_main : θ_run defs (onTc (τ := τ) (main (F := F))) (s₀ m ρ) (Pipeline.FramePost cfgs (dats m) 0 (V m)) :=
  Pipeline.θ_run_frame_of_split cfgs (dats m) (0 : Fin 1) cellOf_inj winFacts₀0 defs₀ Variants.none m ρ main
    (fun c => (body_obligation m c).loose) block_pos0 arr_whole0 stage_whole0 (fun _ _ => rfl) (V m) (hmain m Variants.none)
    (hsplit m) (hin m) (hout m)

/-- The argument arrays end unchanged: four are inputs of the pipeline, the bias vector bypasses it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 5).trans (((dats m 0 c).arrAt_in 5 rfl _).trans ((A_eq m c 5).trans (V_main_arg4 m c)))⟩) (run_main m ρ)

end Cert.KernelIdeal.Body

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.Consts.lean ====
/-
  The float constants the two programs spell, as the extended reals their patterns denote: 1, 2, and the three
  positive rationals that the single-precision patterns of 0.2, 1e-8 and 1.2 are exactly.
-/
import Idealize.ShloMosaic.PureOps.Ideal

noncomputable section

namespace Cert.Consts

open Idealize.ShloMosaic

/-- The pattern of `1.0` denotes `1`. -/
theorem ofBits_one : Ideal.ofBits .f32 0x3F800000#32 = ((1 : ℝ) : EReal) := by
  simp [Ideal.ofBits, Ideal.ieee, -EReal.coe_mul]; norm_num

/-- The pattern of `2.0` denotes `2`. -/
theorem ofBits_two : Ideal.ofBits .f32 0x40000000#32 = ((2 : ℝ) : EReal) := by
  simp [Ideal.ofBits, Ideal.ieee, -EReal.coe_mul]; norm_num

/-- The scale of the squared distance: the single-precision number nearest 0.2. -/
def alpha : ℝ := 13421773 / 67108864
theorem ofBits_alpha : Ideal.ofBits .f32 0x3E4CCCCD#32 = ((alpha : ℝ) : EReal) := by
  unfold alpha; simp [Ideal.ofBits, Ideal.ieee, -EReal.coe_mul]; norm_num
theorem alpha_pos : 0 < alpha := by unfold alpha; norm_num

/-- The offset under the reciprocal: the single-precision number nearest 1e-8. -/
def eps : ℝ := 11258999 / 1125899906842624
theorem ofBits_eps : Ideal.ofBits .f32 0x322BCC77#32 = ((eps : ℝ) : EReal) := by
  unfold eps; simp [Ideal.ofBits, Ideal.ieee, -EReal.coe_mul]; norm_num
theorem eps_pos : 0 < eps := by unfold eps; norm_num

/-- The exponent: the single-precision number nearest 1.2. -/
def expo : ℝ := 10066330 / 8388608
theorem ofBits_expo : Ideal.ofBits .f32 0x3F99999A#32 = ((expo : ℝ) : EReal) := by
  unfold expo; simp [Ideal.ofBits, Ideal.ieee, -EReal.coe_mul]; norm_num

end Cert.Consts

end
-- ==== Proof.LibSoftmaxRow.lean ====
/-
  One row of softmax attention on the extended reals: normalising the weights before or after the weighted sum.

  A row of scores `t k` (k over the keys) and a column of values `v k` give the output
  `∑ₖ softmax(t)ₖ · vₖ`, where `softmax(t)ₖ = exp (tₖ - M) / L`, `M = maxₖ tₖ` (taken from `-∞`) and `L = ∑ₖ exp (tₖ - M)`.
  The quotient by `L` may be taken of every weight before the weighted sum (`attnNormalised`), or once of the weighted
  sum (`attnDeferred`): on the extended reals the two agree as soon as every score and every value is a real number
  (`attnNormalised_eq_attnDeferred`), because then `M` is a real (a maximum of at least one real), every weight
  `exp (tₖ - M)` is a positive real, `L` is a positive real, and a quotient by a nonzero real is the product with its
  reciprocal, which distributes over a finite sum of reals. (At an infinite entry the two can differ, which is why the
  hypothesis is there.) Also: `IsReal`, the extended reals that are real numbers, closed under sums and products; the
  coercion of a finite sum; the f32 pattern of `-∞` is `⊥`. Nothing here mentions a program.
-/
import Idealize.ShloMosaic.PureOps.Ideal
import Idealize.ShloMosaic.PureOps.Ideal.Laws

noncomputable section

namespace Cert.SoftmaxRow

open Idealize.ShloMosaic

/-! ## Reals inside the extended reals -/

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with a finite sum. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-! ## The pattern of `-∞` -/

/-- The pattern of `-∞` is the bottom of the extended reals. -/
theorem ofBits_negInf : Ideal.ofBits .f32 0xFF800000#32 = ⊥ := by
  simp [Ideal.ofBits, Ideal.ieee]

/-! ## One row -/

variable {n : ℕ}

/-- The row's maximum, from `-∞`. -/
def rowMax (t : Fin n → EReal) : EReal := (Finset.univ : Finset (Fin n)).fold max ⊥ t

/-- The unnormalised weight of key `k`. -/
def rowWt (t : Fin n → EReal) (k : Fin n) : EReal := Ideal.exp (t k - rowMax t)

/-- The normaliser: the sum of the weights. -/
def rowDen (t : Fin n → EReal) : EReal := ∑ k, rowWt t k

/-- The weighted sum of the values, divided once by the normaliser. -/
def attnDeferred (t v : Fin n → EReal) : EReal := Ideal.div (∑ k, rowWt t k * v k) (rowDen t)

/-- Every weight divided by the normaliser, then the weighted sum. -/
def attnNormalised (t v : Fin n → EReal) : EReal := ∑ k, Ideal.div (rowWt t k) (rowDen t) * v k

/-- The maximum of at least one real is a real. -/
theorem rowMax_coe (hn : 0 < n) (t : Fin n → ℝ) : IsReal (rowMax fun k => (t k : EReal)) := by
  unfold rowMax
  have hlt : (Finset.univ : Finset (Fin n)).fold max (⊥ : EReal) (fun k => (t k : EReal)) < ⊤ :=
    (Finset.fold_max_lt _).mpr ⟨bot_lt_top, fun k _ => EReal.coe_lt_top _⟩
  have hge : ((t ⟨0, hn⟩ : ℝ) : EReal) ≤ (Finset.univ : Finset (Fin n)).fold max (⊥ : EReal) (fun k => (t k : EReal)) :=
    (Finset.le_fold_max _).mpr (Or.inr ⟨⟨0, hn⟩, Finset.mem_univ _, le_rfl⟩)
  have hne : (Finset.univ : Finset (Fin n)).fold max (⊥ : EReal) (fun k => (t k : EReal)) ≠ ⊥ := fun h => by
    rw [h] at hge
    exact EReal.coe_ne_bot _ (le_bot_iff.mp hge)
  exact ⟨_, (EReal.coe_toReal hlt.ne hne).symm⟩

/-- THE LAW: with real scores and real values, normalising the weights first or the weighted sum afterwards
    is the same extended real. -/
theorem attnNormalised_eq_attnDeferred (hn : 0 < n) (t v : Fin n → EReal) (ht : ∀ k, IsReal (t k)) (hv : ∀ k, IsReal (v k)) :
    attnNormalised t v = attnDeferred t v := by
  choose t' ht' using ht
  choose v' hv' using hv
  obtain rfl : t = fun k => (t' k : EReal) := funext ht'
  obtain rfl : v = fun k => (v' k : EReal) := funext hv'
  obtain ⟨M, hM⟩ := rowMax_coe hn t'
  have hw : ∀ k, rowWt (fun k => (t' k : EReal)) k = ((Real.exp (t' k - M) : ℝ) : EReal) := fun k => by
    unfold rowWt
    rw [hM, ← EReal.coe_sub, Ideal.exp_coe]
  have hL : rowDen (fun k => (t' k : EReal)) = ((∑ k, Real.exp (t' k - M) : ℝ) : EReal) := by
    unfold rowDen
    rw [coe_sum]
    exact Finset.sum_congr rfl fun k _ => hw k
  have hpos : (∑ k : Fin n, Real.exp (t' k - M)) ≠ 0 :=
    (Finset.sum_pos (fun k _ => Real.exp_pos _) ⟨⟨0, hn⟩, Finset.mem_univ _⟩).ne'
  unfold attnNormalised attnDeferred
  rw [hL, Ideal.div_coe hpos]
  simp only [hw, Ideal.div_coe hpos, ← EReal.coe_mul, ← coe_sum]
  congr 1
  rw [Finset.sum_mul]
  exact Finset.sum_congr rfl fun k _ => by ring

end Cert.SoftmaxRow

end
-- ==== Proof.RowLaw.lean ====
/-
  One row of the Student-t soft assignment, computed two ways, on the extended reals.

  For a row `h` (K features) and C centres `mu c`, both programs form, for each centre, a squared distance `D c`,
  the number `t c = 1 / (1 + D c / α + ε)`, a weight `t c ^ p`, and divide each weight by the sum of the weights.
  They differ in three places:
    • the squared distance is taken as `|h|² + |mu c|² − 2 h·mu c` (with `|mu c|²` as a product with a row of
      ones) on one side and as `Σₖ (hₖ − mu c k)²` (from a zero start) on the other;
    • the power is `exp (p · log t)` on one side and `t ^ p` on the other;
    • one side halves every weight before normalising.
  For real `h` and `mu` the two agree: the distances are one real number `D c ≥ 0`, so `t c` is a positive real,
  for a positive base `t ^ p = exp (log t · p)`, and the common factor 1/2 cancels in the quotient because the sum
  of the weights is a positive real. (At an infinite entry the expansion of the square fails, which is why the
  hypothesis is there.) Nothing here mentions a program.
-/
import Idealize.ShloMosaic.PureOps.Ideal
import Idealize.ShloMosaic.PureOps.Ideal.Laws
import proofs.«179142_g25975962206949_cont_8to1_1416_17_alg».proof.Proof.Consts
import proofs.«179142_g25975962206949_cont_8to1_1416_17_alg».proof.Proof.LibSoftmaxRow

noncomputable section

namespace Cert.StudentT

open Idealize.ShloMosaic Cert.SoftmaxRow Cert.Consts

variable {K C : ℕ}

/-! ## The two computations, as written -/

/-- The squared distance by expansion of the square. -/
def distK (h : Fin K → EReal) (mu : Fin C → Fin K → EReal) (c : Fin C) : EReal :=
  ((∑ k, h k * h k) + (∑ k, Ideal.ofBits .f32 0x3F800000#32 * (mu c k * mu c k)))
    - Ideal.ofBits .f32 0x40000000#32 * (∑ k, h k * mu c k)

/-- The weight `exp (p · log (1 / (1 + D/α + ε)))` of a squared distance `D`. -/
def wtK (D : EReal) : EReal :=
  Ideal.exp (Ideal.ofBits .f32 0x3F99999A#32 * Ideal.log (Ideal.div (Ideal.ofBits .f32 0x3F800000#32)
    ((Ideal.ofBits .f32 0x3F800000#32 + Ideal.div D (Ideal.ofBits .f32 0x3E4CCCCD#32)) + Ideal.ofBits .f32 0x322BCC77#32)))

/-- The row of assignments, the first way. -/
def rowK (h : Fin K → EReal) (mu : Fin C → Fin K → EReal) (c : Fin C) : EReal :=
  Ideal.div (wtK (distK h mu c)) (∑ c', wtK (distK h mu c'))

/-- The squared distance as a sum of squared differences, from a zero start. -/
def distR (h : Fin K → EReal) (mu : Fin C → Fin K → EReal) (c : Fin C) : EReal :=
  Ideal.ofBits .f32 0x00000000#32 + ∑ k, (h k - mu c k) * (h k - mu c k)

/-- The weight `(1 / (1 + D/α + ε)) ^ p / 2` of a squared distance `D`. -/
def wtR (D : EReal) : EReal :=
  Ideal.div (Ideal.pow (Ideal.div (Ideal.ofBits .f32 0x3F800000#32)
    ((Ideal.ofBits .f32 0x3F800000#32 + Ideal.div D (Ideal.ofBits .f32 0x3E4CCCCD#32)) + Ideal.ofBits .f32 0x322BCC77#32))
      (Ideal.ofBits .f32 0x3F99999A#32)) (Ideal.ofBits .f32 0x40000000#32)

/-- The row of assignments, the second way. -/
def rowR (h : Fin K → EReal) (mu : Fin C → Fin K → EReal) (c : Fin C) : EReal :=
  Ideal.div (wtR (distR h mu c)) (Ideal.ofBits .f32 0x00000000#32 + ∑ c', wtR (distR h mu c'))

/-! ## On the reals -/

/-- `1 / (1 + D/α + ε)`. -/
def tOf (D : ℝ) : ℝ := 1 * (1 / (1 + D * (1 / alpha) + eps))

/-- `exp (p · log (tOf D))`. -/
def wOf (D : ℝ) : ℝ := Real.exp (expo * Real.log (tOf D))

theorem den_pos {D : ℝ} (hD : 0 ≤ D) : 0 < 1 + D * (1 / alpha) + eps := by
  have h1 : 0 ≤ D * (1 / alpha) := mul_nonneg hD (one_div_pos.mpr alpha_pos).le
  have h2 := eps_pos
  linarith

theorem tOf_pos {D : ℝ} (hD : 0 ≤ D) : 0 < tOf D := by
  unfold tOf; rw [one_mul]; exact one_div_pos.mpr (den_pos hD)

theorem wOf_pos (D : ℝ) : 0 < wOf D := Real.exp_pos _

/-- The common argument of the two weights is the real `tOf D`. -/
theorem arg_coe {D : ℝ} (hD : 0 ≤ D) :
    Ideal.div (Ideal.ofBits .f32 0x3F800000#32)
      ((Ideal.ofBits .f32 0x3F800000#32 + Ideal.div (D : EReal) (Ideal.ofBits .f32 0x3E4CCCCD#32)) + Ideal.ofBits .f32 0x322BCC77#32)
      = ((tOf D : ℝ) : EReal) := by
  rw [ofBits_one, ofBits_alpha, ofBits_eps, Ideal.div_coe alpha_pos.ne', ← EReal.coe_mul, ← EReal.coe_add, ← EReal.coe_add,
    Ideal.div_coe (den_pos hD).ne', ← EReal.coe_mul]
  rfl

/-- The first weight of a real squared distance. -/
theorem wtK_coe {D : ℝ} (hD : 0 ≤ D) : wtK (D : EReal) = ((wOf D : ℝ) : EReal) := by
  unfold wtK
  rw [arg_coe hD, ofBits_expo, Ideal.log_coe, if_neg (not_le.mpr (tOf_pos hD)), ← EReal.coe_mul, Ideal.exp_coe]
  rfl

/-- The second weight of a real squared distance is half the first. -/
theorem wtR_coe {D : ℝ} (hD : 0 ≤ D) : wtR (D : EReal) = ((wOf D * (1 / 2) : ℝ) : EReal) := by
  unfold wtR
  rw [arg_coe hD, ofBits_expo, ofBits_two, Ideal.pow_coe_coe, Ideal.div_coe (by norm_num : (2 : ℝ) ≠ 0), ← EReal.coe_mul]
  congr 2
  unfold wOf
  rw [show Real.rpow (tOf D) expo = (tOf D) ^ expo from rfl, Real.rpow_def_of_pos (tOf_pos hD), mul_comm]

/-! ## The law -/

/-- The real squared distance between a row and a centre. -/
def dist (h : Fin K → ℝ) (mu : Fin C → Fin K → ℝ) (c : Fin C) : ℝ := ∑ k, (h k - mu c k) * (h k - mu c k)

theorem dist_nonneg (h : Fin K → ℝ) (mu : Fin C → Fin K → ℝ) (c : Fin C) : 0 ≤ dist h mu c :=
  Finset.sum_nonneg fun k _ => mul_self_nonneg _

theorem distK_coe (h : Fin K → ℝ) (mu : Fin C → Fin K → ℝ) (c : Fin C) :
    distK (fun k => (h k : EReal)) (fun c k => (mu c k : EReal)) c = ((dist h mu c : ℝ) : EReal) := by
  unfold distK dist
  rw [ofBits_one, ofBits_two]
  simp only [← EReal.coe_mul, ← coe_sum, ← EReal.coe_add, ← EReal.coe_sub]
  congr 1
  rw [← Finset.sum_add_distrib, Finset.mul_sum, ← Finset.sum_sub_distrib]
  exact Finset.sum_congr rfl fun k _ => by ring

theorem distR_coe (h : Fin K → ℝ) (mu : Fin C → Fin K → ℝ) (c : Fin C) :
    distR (fun k => (h k : EReal)) (fun c k => (mu c k : EReal)) c = ((dist h mu c : ℝ) : EReal) := by
  unfold distR dist
  rw [Ideal.ofBits_zero_f32, zero_add]
  simp only [← EReal.coe_sub, ← EReal.coe_mul, ← coe_sum]

/-- THE LAW: for a real row and real centres the two rows of assignments are the same extended reals. -/
theorem rowK_eq_rowR (h : Fin K → EReal) (mu : Fin C → Fin K → EReal) (hh : ∀ k, IsReal (h k)) (hmu : ∀ c k, IsReal (mu c k))
    (c : Fin C) : rowK h mu c = rowR h mu c := by
  choose h' hh' using hh
  choose mu' hmu' using hmu
  obtain rfl : h = fun k => (h' k : EReal) := funext hh'
  obtain rfl : mu = fun c k => (mu' c k : EReal) := funext fun c => funext fun k => hmu' c k
  unfold rowK rowR
  simp only [distK_coe, distR_coe, wtK_coe (dist_nonneg h' mu' _), wtR_coe (dist_nonneg h' mu' _)]
  rw [Ideal.ofBits_zero_f32, zero_add, ← coe_sum, ← coe_sum]
  have hS : 0 < ∑ c', wOf (dist h' mu' c') := Finset.sum_pos (fun c' _ => wOf_pos _) ⟨c, Finset.mem_univ _⟩
  have hS2 : (∑ c', wOf (dist h' mu' c') * (1 / 2)) ≠ 0 := by
    rw [← Finset.sum_mul]; exact (mul_pos hS (by norm_num)).ne'
  rw [Ideal.div_coe hS.ne', Ideal.div_coe hS2, ← EReal.coe_mul, ← EReal.coe_mul]
  congr 1
  rw [← Finset.sum_mul]
  field_simp

end Cert.StudentT

end
-- ==== Proof.IdealPayload.lean ====
/-
  What the idealized kernel's body computes, read at an entry, on the extended reals.

  The support matrix is the product x·W. A half-block of h is the half-block of adj times the support matrix plus the
  bias row. A half-block of q is, row by row, the Student-t assignment computed by expansion of the square: the row's
  squared norm (a lane sum kept as a column), each centre's squared norm (a product with a row of ones), and the cross
  term (a product with the centres' rows), then 1 / (1 + D/α + ε), its power as exp (p · log ·), and the division by the
  row's sum. Each lemma reads one payload of the body at coordinates (p, q).
-/
import proofs.«179142_g25975962206949_cont_8to1_1416_17_alg».proof.Proof.Gen.KernelIdeal.Skeleton
import proofs.«179142_g25975962206949_cont_8to1_1416_17_alg».proof.Proof.LibPlainMatmul
import proofs.«179142_g25975962206949_cont_8to1_1416_17_alg».proof.Proof.LibRowsByRows
import proofs.«179142_g25975962206949_cont_8to1_1416_17_alg».proof.Proof.LibKeepdims
import proofs.«179142_g25975962206949_cont_8to1_1416_17_alg».proof.Proof.LibRowSumZero
import proofs.«179142_g25975962206949_cont_8to1_1416_17_alg».proof.Proof.RowLaw
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx
open Cert.StudentT

theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl

/-- The support matrix x·W at an entry. -/
theorem support_apply (x : Vec Ideal S10000x128 .f32) (w : Vec Ideal S128x128 .f32) (p : Fin 10000) (q : Fin 128) :
    k0_pay2 (F := Ideal) x w (ix2 p q) = ∑ k : Fin 128, x (ix2 p k) * w (ix2 k q) := by
  unfold k0_pay2 dot_S10000x128_S128x128_S10000x128_1_0_0_1_n_n
  refine (congrFun (shapeCast_self _ _) _).trans ?_
  exact Cert.PlainMatmul.matmul_zero_apply _ none x w p q

/-- A half-block of h at an entry: the half-block of adj times the support matrix, plus the bias. -/
theorem hHalf_apply (S : Vec Ideal S10000x128 .f32) (b : Vec Ideal S1x128 .f32) (a : Vec Ideal S200x10000 .f32) (p : Fin 200) (q : Fin 128) :
    k0_pay4 (F := Ideal) S b a (ix2 p q) = (∑ j : Fin 10000, a (ix2 p j) * S (ix2 j q)) + b (ix2 (0 : Fin 1) q) := by
  unfold k0_pay4 k0_pay3 dot_S200x10000_S10000x128_S200x128_1_0_0_1_n_n
  refine congrArg₂ (· + ·) (Cert.PlainMatmul.matmul_zero_apply _ none a S p q) ?_
  exact (broadcastTo_1b_ab_apply _ _ p q).trans (congrFun (shapeCast_self _ _) _)

/-- The same for the second half, whose bias row is handed over already cast. -/
theorem hHalf2_apply (S : Vec Ideal S10000x128 .f32) (b : FVec Ideal S1x128 .f32) (a : Vec Ideal S200x10000 .f32) (p : Fin 200) (q : Fin 128) :
    k0_pay7 (F := Ideal) S b a (ix2 p q) = (∑ j : Fin 10000, a (ix2 p j) * S (ix2 j q)) + b (ix2 (0 : Fin 1) q) := by
  unfold k0_pay7 dot_S200x10000_S10000x128_S200x128_1_0_0_1_n_n
  refine congrArg₂ (· + ·) (Cert.PlainMatmul.matmul_zero_apply _ none a S p q) ?_
  exact broadcastTo_1b_ab_apply _ _ p q

/-- The bias row's cast to its own shape changes nothing. -/
theorem pay3_eq (b : Vec Ideal S1x128 .f32) : k0_pay3 (F := Ideal) b = b := by
  unfold k0_pay3; exact shapeCast_self _ _

/-! ## The three sums of the expanded square, for any block `H` of h and the centres `mu` -/

/-- A row's squared norm, kept as a column and broadcast along the ten centres. -/
theorem normH_apply (H : FVec Ideal S200x128 .f32) (p : Fin 200) (c : Fin 10) :
    broadcastTo S200x10 (shapeCast S200x1 (multiReduction (F := Ideal) .add [1] S200 (mulf H H) 0x00000000#32 reduces_S200x128_S200 (.inl rfl) rfl) shapeCasts_S200_S200x1) broadcasts_S200x1_S200x10 (ix2 p c)
      = ∑ k : Fin 128, H (ix2 p k) * H (ix2 p k) :=
  Cert.Keepdims.rowSumSq_bcast_apply H _ _ _ _ _ p c

/-- A centre's squared norm, taken as a product with a row of ones and broadcast down the rows. -/
theorem normMu_apply (mu : FVec Ideal S10x128 .f32) (one : Ideal .f32) (p : Fin 200) (c : Fin 10) :
    broadcastTo S200x10 (matmul dot_S1x128_S10x128_S1x10_1_1_0_0_n_n none (broadcast S1x128 one) (mulf mu mu) (constant (F := Ideal) S1x10 .f32 0x00000000#32)) broadcasts_S1x10_S200x10 (ix2 p c)
      = ∑ k : Fin 128, one * (mu (ix2 c k) * mu (ix2 c k)) := by
  refine (broadcastTo_1b_ab_apply _ _ p c).trans ?_
  unfold dot_S1x128_S10x128_S1x10_1_1_0_0_n_n
  exact Cert.RowsByRows.matmul_rowsByRows_apply _ none (broadcast S1x128 one) (mulf mu mu) 0 c

/-- The cross term: a row of the block against a centre. -/
theorem cross_apply (H : FVec Ideal S200x128 .f32) (mu : FVec Ideal S10x128 .f32) (p : Fin 200) (c : Fin 10) :
    matmul dot_S200x128_S10x128_S200x10_1_1_0_0_n_n none H mu (constant (F := Ideal) S200x10 .f32 0x00000000#32) (ix2 p c)
      = ∑ k : Fin 128, H (ix2 p k) * mu (ix2 c k) := by
  unfold dot_S200x128_S10x128_S200x10_1_1_0_0_n_n
  exact Cert.RowsByRows.matmul_rowsByRows_apply _ none H mu p c

/-- A lane sum over the ten centres, from the zero pattern. -/
theorem sum10_apply (W : FVec Ideal S200x10 .f32) (p : Fin 200) :
    multiReduction (F := Ideal) .add [1] S200 W 0x00000000#32 reduces_S200x10_S200 (.inl rfl) rfl (ix1 p) = ∑ c : Fin 10, W (ix2 p c) :=
  Cert.RowSumZero.rowSum_zero_apply W _ _ _ p

/-- That sum kept as a column and broadcast along the centres. -/
theorem sum10_bcast_apply (W : FVec Ideal S200x10 .f32) (p : Fin 200) (c : Fin 10) :
    broadcastTo S200x10 (shapeCast S200x1 (multiReduction (F := Ideal) .add [1] S200 W 0x00000000#32 reduces_S200x10_S200 (.inl rfl) rfl) shapeCasts_S200_S200x1) broadcasts_S200x1_S200x10 (ix2 p c)
      = ∑ c' : Fin 10, W (ix2 p c') :=
  (Cert.Keepdims.broadcastTo_a1_ab_apply _ _ p c).trans ((Cert.Keepdims.shapeCast_a_a1_apply _ _ p 0).trans (sum10_apply W p))

/-! ## The first half of the block of q -/

/-- The logarithm the first half carries to the second part of the body, at an entry. -/
theorem logT_apply (S : Vec Ideal S10000x128 .f32) (mu : Vec Ideal S10x128 .f32) (b : Vec Ideal S1x128 .f32) (a : Vec Ideal S200x10000 .f32) (p : Fin 200) (c : Fin 10) :
    k0_pay5 (F := Ideal) S mu b a (ix2 p c)
      = Ideal.log (Ideal.div (Ideal.ofBits .f32 0x3F800000#32)
          ((Ideal.ofBits .f32 0x3F800000#32 + Ideal.div (distK (fun k => k0_pay4 (F := Ideal) S b a (ix2 p k)) (fun c k => mu (ix2 c k)) c) (Ideal.ofBits .f32 0x3E4CCCCD#32)) + Ideal.ofBits .f32 0x322BCC77#32)) := by
  unfold k0_pay5 distK
  simp only [log_apply, divf_apply, addf_apply, subf_apply, mulf_apply, broadcast_apply]
  rw [normH_apply, normMu_apply, cross_apply]
  rfl

/-- The first half of the block of q at an entry: the row's assignments, computed the expanded way. -/
theorem qHalf_apply (S : Vec Ideal S10000x128 .f32) (mu : Vec Ideal S10x128 .f32) (b : Vec Ideal S1x128 .f32) (a : Vec Ideal S200x10000 .f32) (p : Fin 200) (c : Fin 10) :
    k0_pay6 (F := Ideal) (k0_pay5 (F := Ideal) S mu b a) (Scalar.ofBits .f32 0x3F99999A#32) (ix2 p c)
      = rowK (fun k => k0_pay4 (F := Ideal) S b a (ix2 p k)) (fun c k => mu (ix2 c k)) c := by
  unfold k0_pay6 rowK wtK
  simp only [divf_apply, exp_apply, mulf_apply, broadcast_apply]
  rw [sum10_bcast_apply]
  simp only [exp_apply, mulf_apply, broadcast_apply, logT_apply]
  rfl

/-! ## The second half -/

/-- The weights of the second half at an entry. -/
theorem wt2_apply (S : Vec Ideal S10000x128 .f32) (mu : Vec Ideal S10x128 .f32) (b : FVec Ideal S1x128 .f32) (a : Vec Ideal S200x10000 .f32) (p : Fin 200) (c : Fin 10) :
    k0_pay8 (F := Ideal) S mu b a (ix2 p c) = wtK (distK (fun k => k0_pay7 (F := Ideal) S b a (ix2 p k)) (fun c k => mu (ix2 c k)) c) := by
  unfold k0_pay8 wtK distK
  simp only [exp_apply, log_apply, divf_apply, addf_apply, subf_apply, mulf_apply, broadcast_apply]
  rw [normH_apply, normMu_apply, cross_apply]
  rfl

/-- The second half of the block of q at an entry. -/
theorem qHalf2_apply (S : Vec Ideal S10000x128 .f32) (mu : Vec Ideal S10x128 .f32) (b : FVec Ideal S1x128 .f32) (a : Vec Ideal S200x10000 .f32) (p : Fin 200) (c : Fin 10) :
    k0_pay1 (F := Ideal) (k0_pay8 (F := Ideal) S mu b a) (k0_pay9 (F := Ideal) S mu b a) (ix2 p c)
      = rowK (fun k => k0_pay7 (F := Ideal) S b a (ix2 p k)) (fun c k => mu (ix2 c k)) c := by
  unfold k0_pay1 k0_pay9 rowK
  simp only [divf_apply]
  rw [sum10_bcast_apply]
  simp only [wt2_apply]

end Cert.KernelIdeal.Payload

end
-- ==== Proof.LibCanonStep.lean ====
/-
  A list of stores read back ONE STORE AT A TIME against one target function.

  The contents a list of stores leaves (the newest store first in the list) are, at each index, the payload of the first
  store of the list whose rectangle holds the index. To show that these contents are a given function `G` at an index
  `y` it is therefore enough to go down the list once: the newest store's payload must be `G` on that store's own
  rectangle, and, in case `y` lies OUTSIDE that rectangle, the remaining (earlier) stores must leave `G` at `y`. Nothing is
  asked of the earlier stores at indices the newest one covers, so the stores may overlap, and a later store may overwrite
  an earlier one with different values (a buffer first filled with a constant and then overwritten piece by piece).
  The second form states the miss on the coordinates, for a store through a unit-stride rectangle.
-/
import Idealize.ShloMosaic.Lib.Pipeline.Value

noncomputable section

namespace Cert.CanonStep

open Idealize.ShloMosaic Idealize.ShloMosaic.View

variable {Val : EltTy → Type} {S : Shape} {e : EltTy}

/-- The contents left by `p :: L` are `G` at `y` when `p`'s payload is `G` on `p`'s rectangle and, if `y` is outside that
    rectangle, the contents left by `L` are `G` at `y`. -/
theorem canon_cons_eq_of [∀ e, Nonempty (Val e)] (G : S.Idx → Val e) (p : Piece Val S e) (L : List (Piece Val S e))
    (y : S.Idx) (hp : ∀ x : p.1.shape.Idx, p.2 x = G (p.1.emb x)) (hL : y ∉ p.1.set → canon L y = G y) :
    canon (p :: L) y = G y := by
  by_cases hm : y ∈ p.1.set
  · obtain ⟨x, rfl⟩ := p.1.exists_idx_of_mem hm
    rw [show p.1.idx x = p.1.emb x from rfl, canon_cons_emb]
    exact hp x
  · rw [canon_cons_of_not_mem _ _ hm]
    exact hL hm

/-- The same for a newest store through the unit-stride rectangle of sizes `size` at offsets `off`: `y` is outside it
    exactly when some coordinate of `y` is not in `[off a, off a + size a)`. -/
theorem canon_cons_unit_eq_of [∀ e, Nonempty (Val e)] (G : S.Idx → Val e) {off size : Fin S.rank → ℕ}
    (inb : ∀ a, off a + size a ≤ S.size a) (w : (Rect.unit off size inb).shape.Idx → Val e)
    (L : List (Piece Val S e)) (y : S.Idx)
    (hp : ∀ x : (Rect.unit off size inb).shape.Idx, w x = G ((Rect.unit off size inb).emb x))
    (hL : ¬ (∀ a, off a ≤ (y a).val ∧ (y a).val < off a + size a) → canon L y = G y) :
    canon ((⟨Rect.unit off size inb, w⟩ : Piece Val S e) :: L) y = G y :=
  canon_cons_eq_of G ⟨Rect.unit off size inb, w⟩ L y hp fun hm => hL fun h => hm ((Rect.mem_set_unit (inb := inb)).mpr h)

end Cert.CanonStep

end
-- ==== Proof.Spec.lean ====
/-
  The two results as whole-array functions of the five argument arrays, on the extended reals.

  h = adj·(x·W) + b, the bias added to every row. q: row r is the Student-t assignment of row r of h to the ten centres,
  written once with the squared distances taken by expansion of the square, the power as exp (p · log ·) and no halving
  (`qArrK`), and once with the squared distances as sums of squared differences, the power as a power, and every weight
  halved before the normalisation (`qArrR`). When every entry of the five arrays is a real number, every entry of h is
  a real number (finite sums of products of reals), and the two forms of q agree row by row by the law of one row.
  Nothing here mentions a program.
-/
import proofs.«179142_g25975962206949_cont_8to1_1416_17_alg».proof.Proof.RowLaw
import Idealize.ShloMosaic.Lib.ValueIdx

noncomputable section

namespace Cert.Spec

open Idealize.ShloMosaic Idealize.ShloMosaic.ValueIdx Cert.StudentT Cert.SoftmaxRow

/-- Entry (j, q) of the support matrix x·W. -/
def suppG (x : (⟨2, ![10000, 128]⟩ : Shape).Idx → EReal) (w : (⟨2, ![128, 128]⟩ : Shape).Idx → EReal) (j : Fin 10000) (q : Fin 128) : EReal :=
  ∑ l : Fin 128, x (ix2 j l) * w (ix2 l q)

/-- Entry (r, q) of h = adj·(x·W) + b. -/
def hG (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (r : Fin 10000) (q : Fin 128) : EReal :=
  (∑ j : Fin 10000, adj (ix2 r j) * suppG x w j q) + b (ix1 q)

/-- The array h. -/
def hArr (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal := fun i => hG x adj w b (i 0) (i 1)

/-- The array q, the squared distances by expansion of the square. -/
def qArrK (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (mu : (⟨2, ![10, 128]⟩ : Shape).Idx → EReal) :
    (⟨2, ![10000, 10]⟩ : Shape).Idx → EReal :=
  fun i => rowK (fun k => hG x adj w b (i 0) k) (fun c k => mu (ix2 c k)) (i 1)

/-- The array q, the squared distances as sums of squared differences and the weights halved. -/
def qArrR (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (mu : (⟨2, ![10, 128]⟩ : Shape).Idx → EReal) :
    (⟨2, ![10000, 10]⟩ : Shape).Idx → EReal :=
  fun i => rowR (fun k => hG x adj w b (i 0) k) (fun c k => mu (ix2 c k)) (i 1)

section Real

variable {x : (⟨2, ![10000, 128]⟩ : Shape).Idx → EReal} {adj : (⟨2, ![10000, 10000]⟩ : Shape).Idx → EReal}
  {w : (⟨2, ![128, 128]⟩ : Shape).Idx → EReal} {b : (⟨1, ![128]⟩ : Shape).Idx → EReal} {mu : (⟨2, ![10, 128]⟩ : Shape).Idx → EReal}

/-- With real entries, every entry of h is a real number. -/
theorem hG_isReal (hx : ∀ i, IsReal (x i)) (hadj : ∀ i, IsReal (adj i)) (hw : ∀ i, IsReal (w i)) (hb : ∀ i, IsReal (b i))
    (r : Fin 10000) (q : Fin 128) : IsReal (hG x adj w b r q) :=
  (isReal_sum _ _ fun j => (hadj _).mul (isReal_sum _ _ fun l => (hx _).mul (hw _))).add (hb _)

/-- With real entries, the two forms of q are the same array. -/
theorem qArrK_eq_qArrR (hx : ∀ i, IsReal (x i)) (hadj : ∀ i, IsReal (adj i)) (hw : ∀ i, IsReal (w i)) (hb : ∀ i, IsReal (b i))
    (hmu : ∀ i, IsReal (mu i)) : qArrK x adj w b mu = qArrR x adj w b mu :=
  funext fun i => rowK_eq_rowR _ _ (fun k => hG_isReal hx hadj hw hb (i 0) k) (fun c k => hmu (ix2 c k)) (i 1)

end Real

end Cert.Spec

end
-- ==== Proof.IdealValue.lean ====
/-
  What the idealized kernel's two result arrays hold after the run, as the specification's arrays of the argument arrays.

  Each grid point t writes back one block of 400 rows of h and of q. A block is the two half-block stores of the body:
  rows 0–199 come from the first window on adj, whose block index is 2t (rows 400t … 400t+199 of adj), rows 200–399
  from the second, whose block index is 2t+1 (rows 400t+200 … 400t+399). The scratch's support matrix is x·W of the
  whole arrays, and the bias row the region finds is the bias vector reshaped. So every stored entry is the
  specification's entry at its row of the array, the 25 blocks tile the 10000 rows (row r lies in block r / 400), and the
  arrays end as `hArr` and `qArrK` of the arguments.
-/
import proofs.«179142_g25975962206949_cont_8to1_1416_17_alg».proof.Proof.IdealFrame
import proofs.«179142_g25975962206949_cont_8to1_1416_17_alg».proof.Proof.IdealPayload
import proofs.«179142_g25975962206949_cont_8to1_1416_17_alg».proof.Proof.LibCanonStep
import proofs.«179142_g25975962206949_cont_8to1_1416_17_alg».proof.Proof.Spec
import Idealize.ShloMosaic.Lib.StableHlo.Run
import Idealize.ShloMosaic.Lib.ValueLayout

set_option maxRecDepth 16384

noncomputable section

namespace Cert.KernelIdeal.Body

open Cert.KernelIdeal Cert.KernelIdeal.Gen Cert.KernelIdeal.Payload
open Idealize.ShloMosaic Idealize.ShloMosaic.TcCoe Idealize.ShloMosaic.ValueIdx
open Idealize.SL Idealize.SL.Sem
open Idealize.ShloMosaic.Pipeline (Dat Cfg Window)
open Cert.StudentT Cert.Spec

variable (m : (ℓ : Loc nD τ sig) → Buf (Elt Ideal) ℓ) (ρ : Dev nD → PrngReg)

/-! ## The windows' blocks, read off the arrays -/

/-- The printed index maps, decided over the grid: x, W, the bias row and the centres are one whole block; the two
    windows on adj read the half-blocks 2t and 2t + 1; the outputs write block t. -/
theorem idx_facts : ∀ t : Fin cfg0.N,
    win0_0.index t (0 : Fin 2) = 0 ∧ win0_0.index t (1 : Fin 2) = 0 ∧ win0_1.index t (0 : Fin 2) = 0 ∧ win0_1.index t (1 : Fin 2) = 0
    ∧ win0_2.index t (0 : Fin 2) = 2 * t.val ∧ win0_2.index t (1 : Fin 2) = 0 ∧ win0_3.index t (0 : Fin 2) = 2 * t.val + 1 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = t.val ∧ win0_6.index t (1 : Fin 2) = 0 ∧ win0_7.index t (0 : Fin 2) = t.val ∧ win0_7.index t (1 : Fin 2) = 0 :=
  (by decide +kernel : ∀ t : Fin grid0.N, _)

theorem iblk0_apply (c : Dev nD) (t : Fin cfg0.N) (j : Fin 10000) (l : Fin 128) :
    iblk m c 0 t (ix2 j l) = V m c main_arg0 (ix2 j l) := by
  obtain ⟨e0, e1, -⟩ := idx_facts t
  show V m c main_arg0 (((cfg0.win 0).blk t).view.emb (ix2 j l)) = V m c main_arg0 (ix2 j l)
  refine congrArg _ (funext fun a => Fin.ext ?_)
  match a with
  | ⟨0, _⟩ => show win0_0.index t (0 : Fin 2) * 10000 + 1 * j.val = j.val; omega
  | ⟨1, _⟩ => show win0_0.index t (1 : Fin 2) * 128 + 1 * l.val = l.val; omega

theorem iblk1_apply (c : Dev nD) (t : Fin cfg0.N) (l : Fin 128) (q : Fin 128) :
    iblk m c 1 t (ix2 l q) = V m c main_arg2 (ix2 l q) := by
  obtain ⟨-, -, e0, e1, -⟩ := idx_facts t
  show V m c main_arg2 (((cfg0.win 1).blk t).view.emb (ix2 l q)) = V m c main_arg2 (ix2 l q)
  refine congrArg _ (funext fun a => Fin.ext ?_)
  match a with
  | ⟨0, _⟩ => show win0_1.index t (0 : Fin 2) * 128 + 1 * l.val = l.val; omega
  | ⟨1, _⟩ => show win0_1.index t (1 : Fin 2) * 128 + 1 * q.val = q.val; omega

/-- Row p of the first half-block of adj at point t is row 400 t + p of adj. -/
theorem iblk2_apply (c : Dev nD) (t : Fin cfg0.N) (p : Fin 200) (j : Fin 10000) (r : Fin 10000) (hr : r.val = 400 * t.val + p.val) :
    iblk m c 2 t (ix2 p j) = V m c main_arg1 (ix2 r j) := by
  obtain ⟨-, -, -, -, e0, e1, -⟩ := idx_facts t
  show V m c main_arg1 (((cfg0.win 2).blk t).view.emb (ix2 p j)) = V m c main_arg1 (ix2 r j)
  refine congrArg _ (funext fun a => Fin.ext ?_)
  match a with
  | ⟨0, _⟩ => show win0_2.index t (0 : Fin 2) * 200 + 1 * p.val = r.val; omega
  | ⟨1, _⟩ => show win0_2.index t (1 : Fin 2) * 10000 + 1 * j.val = j.val; omega

/-- Row p of the second half-block of adj at point t is row 400 t + 200 + p of adj. -/
theorem iblk3_apply (c : Dev nD) (t : Fin cfg0.N) (p : Fin 200) (j : Fin 10000) (r : Fin 10000) (hr : r.val = 400 * t.val + 200 + p.val) :
    iblk m c 3 t (ix2 p j) = V m c main_arg1 (ix2 r j) := by
  obtain ⟨-, -, -, -, -, -, e0, e1, -⟩ := idx_facts t
  show V m c main_arg1 (((cfg0.win 3).blk t).view.emb (ix2 p j)) = V m c main_arg1 (ix2 r j)
  refine congrArg _ (funext fun a => Fin.ext ?_)
  match a with
  | ⟨0, _⟩ => show win0_3.index t (0 : Fin 2) * 200 + 1 * p.val = r.val; omega
  | ⟨1, _⟩ => show win0_3.index t (1 : Fin 2) * 10000 + 1 * j.val = j.val; omega

/-- The bias row the region finds is the bias vector reshaped: its entry (0, q) is the vector's entry q. -/
theorem V_main_v0_eq (c : Dev nD) :
    (V m c main_v0 : S1x128.Idx → EReal) = shapeCast S1x128 (m ((c : Thread nD τ).loc main_arg3)) shapeCasts_S128_S1x128 := by
  dsimp only [V, hostOps0]
  after_results
  rfl

theorem V_main_v0_apply (c : Dev nD) (q : Fin 128) : V m c main_v0 (ix2 (0 : Fin 1) q) = V m c main_arg3 (ix1 q) := by
  rw [V_main_arg3 m c]
  exact (congrFun (V_main_v0_eq m c) _).trans (shapeCast_a_1a_apply _ _ 0 q)

theorem iblk4_apply (c : Dev nD) (t : Fin cfg0.N) (q : Fin 128) :
    iblk m c 4 t (ix2 (0 : Fin 1) q) = V m c main_arg3 (ix1 q) := by
  obtain ⟨-, -, -, -, -, -, -, -, e0, e1, -⟩ := idx_facts t
  refine Eq.trans ?_ (V_main_v0_apply m c q)
  show V m c main_v0 (((cfg0.win 4).blk t).view.emb (ix2 (0 : Fin 1) q)) = V m c main_v0 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

theorem iblk5_apply (c : Dev nD) (t : Fin cfg0.N) (k : Fin 10) (l : Fin 128) :
    iblk m c 5 t (ix2 k l) = V m c main_arg4 (ix2 k l) := by
  obtain ⟨-, -, -, -, -, -, -, -, -, -, e0, e1, -⟩ := idx_facts t
  show V m c main_arg4 (((cfg0.win 5).blk t).view.emb (ix2 k l)) = V m c main_arg4 (ix2 k l)
  refine congrArg _ (funext fun a => Fin.ext ?_)
  match a with
  | ⟨0, _⟩ => show win0_5.index t (0 : Fin 2) * 10 + 1 * k.val = k.val; omega
  | ⟨1, _⟩ => show win0_5.index t (1 : Fin 2) * 128 + 1 * l.val = l.val; omega

/-! ## The body's values at an entry, in terms of the arrays -/

/-- The scratch's support matrix is x·W of the arrays. -/
theorem supp_apply (c : Dev nD) (j : Fin 10000) (q : Fin 128) :
    supp m c (ix2 j q) = suppG (V m c main_arg0) (V m c main_arg2) j q := by
  unfold supp suppG
  refine (support_apply (iblk m c 0 t0) (iblk m c 1 t0) j q).trans ?_
  exact Finset.sum_congr rfl fun l _ => by rw [iblk0_apply m c t0 j l, iblk1_apply m c t0 l q]

/-- Row p of the first half-block of h at point t is row 400 t + p of h. -/
theorem hTop_apply (c : Dev nD) (t : Fin cfg0.N) (p : Fin 200) (q : Fin 128) (r : Fin 10000) (hr : r.val = 400 * t.val + p.val) :
    k0_pay4 (F := Ideal) (supp m c) (iblk m c 4 t) (iblk m c 2 t) (ix2 p q)
      = hG (V m c main_arg0) (V m c main_arg1) (V m c main_arg2) (V m c main_arg3) r q := by
  refine (hHalf_apply (supp m c) (iblk m c 4 t) (iblk m c 2 t) p q).trans ?_
  unfold hG
  exact congrArg₂ (· + ·) (Finset.sum_congr rfl fun j _ => by rw [iblk2_apply m c t p j r hr, supp_apply m c j q]) (iblk4_apply m c t q)

/-- Row p of the second half-block of h at point t is row 400 t + 200 + p of h. -/
theorem hBot_apply (c : Dev nD) (t : Fin cfg0.N) (p : Fin 200) (q : Fin 128) (r : Fin 10000) (hr : r.val = 400 * t.val + 200 + p.val) :
    k0_pay7 (F := Ideal) (supp m c) (k0_pay3 (F := Ideal) (iblk m c 4 t)) (iblk m c 3 t) (ix2 p q)
      = hG (V m c main_arg0) (V m c main_arg1) (V m c main_arg2) (V m c main_arg3) r q := by
  refine (hHalf2_apply (supp m c) (k0_pay3 (F := Ideal) (iblk m c 4 t)) (iblk m c 3 t) p q).trans ?_
  unfold hG
  refine congrArg₂ (· + ·) (Finset.sum_congr rfl fun j _ => by rw [iblk3_apply m c t p j r hr, supp_apply m c j q]) ?_
  rw [pay3_eq (iblk m c 4 t)]
  exact iblk4_apply m c t q

/-- Row p of the first half-block of q at point t is row 400 t + p of q. -/
theorem qTop_apply (c : Dev nD) (t : Fin cfg0.N) (p : Fin 200) (k : Fin 10) (r : Fin 10000) (hr : r.val = 400 * t.val + p.val) :
    k0_pay6 (F := Ideal) (k0_pay5 (F := Ideal) (supp m c) (iblk m c 5 t) (iblk m c 4 t) (iblk m c 2 t)) (expo (F := Ideal)) (ix2 p k)
      = rowK (fun l => hG (V m c main_arg0) (V m c main_arg1) (V m c main_arg2) (V m c main_arg3) r l) (fun k l => V m c main_arg4 (ix2 k l)) k := by
  refine (qHalf_apply (supp m c) (iblk m c 5 t) (iblk m c 4 t) (iblk m c 2 t) p k).trans ?_
  exact congrArg₂ (fun f g => rowK f g k) (funext fun l => hTop_apply m c t p l r hr)
    (funext fun k' => funext fun l => iblk5_apply m c t k' l)

/-- Row p of the second half-block of q at point t is row 400 t + 200 + p of q. -/
theorem qBot_apply (c : Dev nD) (t : Fin cfg0.N) (p : Fin 200) (k : Fin 10) (r : Fin 10000) (hr : r.val = 400 * t.val + 200 + p.val) :
    k0_pay1 (F := Ideal) (k0_pay8 (F := Ideal) (supp m c) (iblk m c 5 t) (k0_pay3 (F := Ideal) (iblk m c 4 t)) (iblk m c 3 t))
        (k0_pay9 (F := Ideal) (supp m c) (iblk m c 5 t) (k0_pay3 (F := Ideal) (iblk m c 4 t)) (iblk m c 3 t)) (ix2 p k)
      = rowK (fun l => hG (V m c main_arg0) (V m c main_arg1) (V m c main_arg2) (V m c main_arg3) r l) (fun k l => V m c main_arg4 (ix2 k l)) k := by
  refine (qHalf2_apply (supp m c) (iblk m c 5 t) (k0_pay3 (F := Ideal) (iblk m c 4 t)) (iblk m c 3 t) p k).trans ?_
  exact congrArg₂ (fun f g => rowK f g k) (funext fun l => hBot_apply m c t p l r hr)
    (funext fun k' => funext fun l => iblk5_apply m c t k' l)

/-! ## What each point writes back is its block of the specification -/

/-- Point t writes back block t of h. -/
theorem flushedH_eq (c : Dev nD) (t : Fin cfg0.N) :
    (dats m 0 c).flushed 6 t = ((cfg0.win 6).blk t).view.read (Elt Ideal) (hArr (V m c main_arg0) (V m c main_arg1) (V m c main_arg2) (V m c main_arg3)) := by
  obtain ⟨-, -, -, -, -, -, -, -, -, -, -, -, e0, e1, -⟩ := idx_facts t
  have hN : cfg0.N = 25 := N_0
  have ht := t.isLt
  show (cfg0.win 6).cut (grid0.coords t) ((dats m 0 c).after 6 t) = _
  rw [after6]
  funext y
  show outH (supp m c) (iblk m c 4 t) (iblk m c 2 t) (iblk m c 3 t) y = hArr (V m c main_arg0) (V m c main_arg1) (V m c main_arg2) (V m c main_arg3) (((cfg0.win 6).blk t).view.emb y)
  unfold outH
  refine Cert.CanonStep.canon_cons_unit_eq_of (Val := Elt Ideal) (S := S400x128) (e := .f32) (fun y => hArr (V m c main_arg0) (V m c main_arg1) (V m c main_arg2) (V m c main_arg3) (((cfg0.win 6).blk t).view.emb y)) _ _ _ y ?_ ?_
  · intro x
    obtain ⟨p, q, rfl⟩ : ∃ (p : Fin 200) (q : Fin 128), x = ix2 p q := ⟨x 0, x 1, eq_ix2 x⟩
    refine (hBot_apply m c t p q ⟨400 * t.val + 200 + p.val, by omega⟩ rfl).trans ?_
    unfold hArr
    refine congrArg₂ (hG (V m c main_arg0) (V m c main_arg1) (V m c main_arg2) (V m c main_arg3)) (Fin.ext ?_) (Fin.ext ?_)
    · show 400 * t.val + 200 + p.val = win0_6.index t (0 : Fin 2) * 400 + 1 * (200 + 1 * p.val); omega
    · show q.val = win0_6.index t (1 : Fin 2) * 128 + 1 * (0 + 1 * q.val); omega
  · intro hm
    refine Cert.CanonStep.canon_cons_unit_eq_of (Val := Elt Ideal) (S := S400x128) (e := .f32) (fun y => hArr (V m c main_arg0) (V m c main_arg1) (V m c main_arg2) (V m c main_arg3) (((cfg0.win 6).blk t).view.emb y)) _ _ [] y ?_ ?_
    · intro x
      obtain ⟨p, q, rfl⟩ : ∃ (p : Fin 200) (q : Fin 128), x = ix2 p q := ⟨x 0, x 1, eq_ix2 x⟩
      refine (hTop_apply m c t p q ⟨400 * t.val + p.val, by omega⟩ rfl).trans ?_
      unfold hArr
      refine congrArg₂ (hG (V m c main_arg0) (V m c main_arg1) (V m c main_arg2) (V m c main_arg3)) (Fin.ext ?_) (Fin.ext ?_)
      · show 400 * t.val + p.val = win0_6.index t (0 : Fin 2) * 400 + 1 * (0 + 1 * p.val); omega
      · show q.val = win0_6.index t (1 : Fin 2) * 128 + 1 * (0 + 1 * q.val); omega
    · intro hm2
      exfalso
      have h0 : (y 0).val < 400 := (y 0).isLt
      have h1 : (y 1).val < 128 := (y 1).isLt
      by_cases h : (y 0).val < 200
      · exact hm2 fun a => by
          match a with
          | ⟨0, _⟩ => exact ⟨Nat.zero_le _, by show (y 0).val < 0 + 200; omega⟩
          | ⟨1, _⟩ => exact ⟨Nat.zero_le _, by show (y 1).val < 0 + 128; omega⟩
      · exact hm fun a => by
          match a with
          | ⟨0, _⟩ => exact ⟨by show 200 ≤ (y 0).val; omega, by show (y 0).val < 200 + 200; omega⟩
          | ⟨1, _⟩ => exact ⟨Nat.zero_le _, by show (y 1).val < 0 + 128; omega⟩

/-- Point t writes back block t of q. -/
theorem flushedQ_eq (c : Dev nD) (t : Fin cfg0.N) :
    (dats m 0 c).flushed 7 t = ((cfg0.win 7).blk t).view.read (Elt Ideal) (qArrK (V m c main_arg0) (V m c main_arg1) (V m c main_arg2) (V m c main_arg3) (V m c main_arg4)) := by
  obtain ⟨-, -, -, -, -, -, -, -, -, -, -, -, -, -, e0, e1⟩ := idx_facts t
  have hN : cfg0.N = 25 := N_0
  have ht := t.isLt
  show (cfg0.win 7).cut (grid0.coords t) ((dats m 0 c).after 7 t) = _
  rw [after7]
  funext y
  show outQ (supp m c) (iblk m c 5 t) (iblk m c 4 t) (iblk m c 2 t) (iblk m c 3 t) y
    = qArrK (V m c main_arg0) (V m c main_arg1) (V m c main_arg2) (V m c main_arg3) (V m c main_arg4) (((cfg0.win 7).blk t).view.emb y)
  unfold outQ
  refine Cert.CanonStep.canon_cons_unit_eq_of (Val := Elt Ideal) (S := S400x10) (e := .f32) (fun y => qArrK (V m c main_arg0) (V m c main_arg1) (V m c main_arg2) (V m c main_arg3) (V m c main_arg4) (((cfg0.win 7).blk t).view.emb y)) _ _ _ y ?_ ?_
  · intro x
    obtain ⟨p, k, rfl⟩ : ∃ (p : Fin 200) (k : Fin 10), x = ix2 p k := ⟨x 0, x 1, eq_ix2 x⟩
    refine (qBot_apply m c t p k ⟨400 * t.val + 200 + p.val, by omega⟩ rfl).trans ?_
    unfold qArrK
    refine congrArg₂ (fun (r : Fin 10000) (k : Fin 10) => rowK (fun l => hG (V m c main_arg0) (V m c main_arg1) (V m c main_arg2) (V m c main_arg3) r l) (fun k l => V m c main_arg4 (ix2 k l)) k) (Fin.ext ?_) (Fin.ext ?_)
    · show 400 * t.val + 200 + p.val = win0_7.index t (0 : Fin 2) * 400 + 1 * (200 + 1 * p.val); omega
    · show k.val = win0_7.index t (1 : Fin 2) * 10 + 1 * (0 + 1 * k.val); omega
  · intro hm
    refine Cert.CanonStep.canon_cons_unit_eq_of (Val := Elt Ideal) (S := S400x10) (e := .f32) (fun y => qArrK (V m c main_arg0) (V m c main_arg1) (V m c main_arg2) (V m c main_arg3) (V m c main_arg4) (((cfg0.win 7).blk t).view.emb y)) _ _ [] y ?_ ?_
    · intro x
      obtain ⟨p, k, rfl⟩ : ∃ (p : Fin 200) (k : Fin 10), x = ix2 p k := ⟨x 0, x 1, eq_ix2 x⟩
      refine (qTop_apply m c t p k ⟨400 * t.val + p.val, by omega⟩ rfl).trans ?_
      unfold qArrK
      refine congrArg₂ (fun (r : Fin 10000) (k : Fin 10) => rowK (fun l => hG (V m c main_arg0) (V m c main_arg1) (V m c main_arg2) (V m c main_arg3) r l) (fun k l => V m c main_arg4 (ix2 k l)) k) (Fin.ext ?_) (Fin.ext ?_)
      · show 400 * t.val + p.val = win0_7.index t (0 : Fin 2) * 400 + 1 * (0 + 1 * p.val); omega
      · show k.val = win0_7.index t (1 : Fin 2) * 10 + 1 * (0 + 1 * k.val); omega
    · intro hm2
      exfalso
      have h0 : (y 0).val < 400 := (y 0).isLt
      have h1 : (y 1).val < 10 := (y 1).isLt
      by_cases h : (y 0).val < 200
      · exact hm2 fun a => by
          match a with
          | ⟨0, _⟩ => exact ⟨Nat.zero_le _, by show (y 0).val < 0 + 200; omega⟩
          | ⟨1, _⟩ => exact ⟨Nat.zero_le _, by show (y 1).val < 0 + 10; omega⟩
      · exact hm fun a => by
          match a with
          | ⟨0, _⟩ => exact ⟨by show 200 ≤ (y 0).val; omega, by show (y 0).val < 200 + 200; omega⟩
          | ⟨1, _⟩ => exact ⟨Nat.zero_le _, by show (y 1).val < 0 + 10; omega⟩

/-! ## The blocks tile the arrays -/

theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v1_0).slice (win0_6.rect t)).set ↔ _
  rw [View.set_slice_whole, Rect.mem_set_unit]
  exact Iff.rfl

theorem mem_blk7 (t : Fin cfg0.N) (i : S10000x10.Idx) :
    i ∈ ((cfg0.win 7).blk t).view.set ↔ ∀ a : Fin 2, win0_7.index t a * S400x10.size a ≤ (i a).val ∧ (i a).val < win0_7.index t a * S400x10.size a + S400x10.size a := by
  show i ∈ ((View.whole main_v1_1).slice (win0_7.rect t)).set ↔ _
  rw [View.set_slice_whole, Rect.mem_set_unit]
  exact Iff.rfl

/-- Row r of h lies in the block of point r / 400. -/
theorem cover6 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  have hlt : (i 0).val / 400 < cfg0.N := by omega
  obtain ⟨-, -, -, -, -, -, -, -, -, -, -, -, e0, e1, -⟩ := idx_facts ⟨(i 0).val / 400, hlt⟩
  refine ⟨⟨(i 0).val / 400, hlt⟩, flush0_6 _, ?_⟩
  rw [mem_blk6]
  intro a
  match a with
  | ⟨0, _⟩ =>
    show win0_6.index ⟨(i 0).val / 400, hlt⟩ (0 : Fin 2) * 400 ≤ (i 0).val ∧ (i 0).val < win0_6.index ⟨(i 0).val / 400, hlt⟩ (0 : Fin 2) * 400 + 400
    have e0' : win0_6.index ⟨(i 0).val / 400, hlt⟩ (0 : Fin 2) = (i 0).val / 400 := e0
    omega
  | ⟨1, _⟩ =>
    show win0_6.index ⟨(i 0).val / 400, hlt⟩ (1 : Fin 2) * 128 ≤ (i 1).val ∧ (i 1).val < win0_6.index ⟨(i 0).val / 400, hlt⟩ (1 : Fin 2) * 128 + 128
    omega

/-- Row r of q lies in the block of point r / 400. -/
theorem cover7 (i : S10000x10.Idx) : ∃ t : Fin cfg0.N, (cfg0.win 7).flush t = true ∧ i ∈ ((cfg0.win 7).blk t).view.set := by
  have hi0 : (i 0).val < 10000 := (i 0).isLt
  have hi1 : (i 1).val < 10 := (i 1).isLt
  have hN : cfg0.N = 25 := N_0
  have hlt : (i 0).val / 400 < cfg0.N := by omega
  obtain ⟨-, -, -, -, -, -, -, -, -, -, -, -, -, -, e0, e1⟩ := idx_facts ⟨(i 0).val / 400, hlt⟩
  refine ⟨⟨(i 0).val / 400, hlt⟩, flush0_7 _, ?_⟩
  rw [mem_blk7]
  intro a
  match a with
  | ⟨0, _⟩ =>
    show win0_7.index ⟨(i 0).val / 400, hlt⟩ (0 : Fin 2) * 400 ≤ (i 0).val ∧ (i 0).val < win0_7.index ⟨(i 0).val / 400, hlt⟩ (0 : Fin 2) * 400 + 400
    have e0' : win0_7.index ⟨(i 0).val / 400, hlt⟩ (0 : Fin 2) = (i 0).val / 400 := e0
    omega
  | ⟨1, _⟩ =>
    show win0_7.index ⟨(i 0).val / 400, hlt⟩ (1 : Fin 2) * 10 ≤ (i 1).val ∧ (i 1).val < win0_7.index ⟨(i 0).val / 400, hlt⟩ (1 : Fin 2) * 10 + 10
    omega

/-! ## The arrays after the run -/

theorem finalH (c : Dev nD) : (dats m 0 c).arrAt 6 cfg0.N = hArr (V m c main_arg0) (V m c main_arg1) (V m c main_arg2) (V m c main_arg3) :=
  (dats m 0 c).arrAt_eq_of_cover 6 _ (fun t _ => flushedH_eq m c t) cover6

theorem finalQ (c : Dev nD) : (dats m 0 c).arrAt 7 cfg0.N = qArrK (V m c main_arg0) (V m c main_arg1) (V m c main_arg2) (V m c main_arg3) (V m c main_arg4) :=
  (dats m 0 c).arrAt_eq_of_cover 7 _ (fun t _ => flushedQ_eq m c t) cover7

/-! ## The run, read: both results as the specification's arrays of the argument arrays -/

theorem run_value : θ_run defs (onTc (τ := τ) (main (F := Ideal))) ⟨m, fun _ => 0, ρ⟩ (fun r => ∀ c : Dev nD,
      r.2.mem ((c.tc : Thread nD τ).loc main_v1_0) = hArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_1) = qArrK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 6).trans ((finalH m c).trans (by rw [V_main_arg0 m c, V_main_arg1 m c, V_main_arg2 m c, V_main_arg3 m c])),
      ((h c).1 7).trans ((finalQ m c).trans (by rw [V_main_arg0 m c, V_main_arg1 m c, V_main_arg2 m c, V_main_arg3 m c, V_main_arg4 m c])),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 5).trans (((dats m 0 c).arrAt_in 5 rfl _).trans ((A_eq m c 5).trans (V_main_arg4 m c)))⟩) (run_main m ρ)

end Cert.KernelIdeal.Body

end
-- ==== Proof.RefValue.lean ====
/-
  The reference program's two results, read index by index, are the arrays of the specification: h = adj·(x·W) + b, and
  q in the form with squared differences, a power, and halved weights. Each host operation is read at an index by its
  generated lemma; what is left is to identify the composed index maps with coordinates.
-/
import proofs.«179142_g25975962206949_cont_8to1_1416_17_alg».proof.Proof.Gen.ReferenceIdeal.Read
import proofs.«179142_g25975962206949_cont_8to1_1416_17_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Spec Cert.StudentT

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S10x128, .f32⟩ : BufTy).Contents (Elt Ideal))

/-- Entry (r, q) of the reference's h is the specification's. -/
theorem refH_apply (r : Fin 10000) (q : Fin 128) : val_main_v4 (F := Ideal) x0 x1 x2 x3 (ix2 r q) = hG x0 x1 x2 x3 r q := by
  have e1 : ∀ k : Fin 10000, lidx_main_v1 (ix2 r q) k = ix2 r k := fun k => funext fun a => Fin.ext (by match a with | ⟨0, _⟩ => rfl | ⟨1, _⟩ => rfl)
  have e2 : ∀ (k : Fin 10000) (l : Fin 128), lidx_main_v0 (ridx_main_v1 (ix2 r q) k) l = ix2 k l := fun k l => funext fun a => Fin.ext (by match a with | ⟨0, _⟩ => rfl | ⟨1, _⟩ => rfl)
  have e3 : ∀ (k : Fin 10000) (l : Fin 128), ridx_main_v0 (ridx_main_v1 (ix2 r q) k) l = ix2 l q := fun k l => funext fun a => Fin.ext (by match a with | ⟨0, _⟩ => rfl | ⟨1, _⟩ => rfl)
  have e4 : idx_main_v2 (idx_main_v3 (ix2 r q)) = ix1 q := funext fun a => Fin.ext (by match a with | ⟨0, _⟩ => rfl)
  rw [val_main_v4_apply, val_main_v1_apply, val_main_v3_apply, val_main_v2_apply]
  simp only [val_main_v0_apply, e1, e2, e3, e4]
  rfl

/-- The reference's h is the array of the specification. -/
theorem refH_eq : val_main_v4 (F := Ideal) x0 x1 x2 x3 = hArr x0 x1 x2 x3 := by
  funext i
  obtain ⟨r, q, rfl⟩ : ∃ (r : Fin 10000) (q : Fin 128), i = ix2 r q := ⟨i 0, i 1, eq_ix2 i⟩
  exact refH_apply x0 x1 x2 x3 r q

/-- Entry (r, c) of the reference's q is the specification's, in the form with squared differences and halved weights. -/
theorem refQ_apply (r : Fin 10000) (c : Fin 10) :
    val_main_v27 (F := Ideal) x0 x1 x2 x3 x4 (ix2 r c) = rowR (fun k => hG x0 x1 x2 x3 r k) (fun c k => x4 (ix2 c k)) c := by
  have f1 : ∀ (c : Fin 10) (k : Fin 128), idx_main_v5 (idx_main_v7 (idx_main_v11 (ix2 r c) k)) = ix2 r k := fun c k => funext fun a => Fin.ext (by match a with | ⟨0, _⟩ => rfl | ⟨1, _⟩ => rfl)
  have f2 : ∀ (c : Fin 10) (k : Fin 128), idx_main_v6 (idx_main_v8 (idx_main_v11 (ix2 r c) k)) = ix2 c k := fun c k => funext fun a => Fin.ext (by match a with | ⟨0, _⟩ => rfl | ⟨1, _⟩ => rfl)
  have f3 : ∀ c' : Fin 10, idx_main_v24 (idx_main_v25 (idx_main_v26 (ix2 r c))) c' = ix2 r c' := fun c' => funext fun a => Fin.ext (by match a with | ⟨0, _⟩ => rfl | ⟨1, _⟩ => rfl)
  simp only [val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply,
    val_main_cst_apply, val_main_cst_0_apply, val_main_cst_1_apply, val_main_cst_2_apply, val_main_cst_3_apply,
    val_main_cst_4_apply, val_main_cst_5_apply, val_main_cst_6_apply, f3, f1, f2, refH_apply]
  rfl

/-- The reference's q is the array of the specification in that form. -/
theorem refQ_eq : val_main_v27 (F := Ideal) x0 x1 x2 x3 x4 = qArrR x0 x1 x2 x3 x4 := by
  funext i
  obtain ⟨r, c, rfl⟩ : ∃ (r : Fin 10000) (c : Fin 10), i = ix2 r c := ⟨i 0, i 1, eq_ix2 i⟩
  exact refQ_apply x0 x1 x2 x3 x4 r c

end Cert.ReferenceIdeal.RefValue

end
-- ==== Proof.Finite.lean ====
/-
  The precondition, decoded: every entry of each of the five argument arrays is a real number.

  The printed predicate is the conjunction, over the five arrays, of "all entries have absolute value below +∞". On the
  extended reals an absolute value max x (−x) below +∞ excludes both infinities, so the entry is a real number.
-/
import proofs.«179142_g25975962206949_cont_8to1_1416_17_alg».proof.Pre_finite_inputs
import proofs.«179142_g25975962206949_cont_8to1_1416_17_alg».proof.Proof.LibSoftmaxRow
import Idealize.ShloMosaic.Lib.ReduceAll
import Idealize.ShloMosaic.Lib.Affine
import Idealize.ShloMosaic.Lib.ValueIdx
import Idealize.ShloMosaic.PureOps.Ideal

noncomputable section

namespace Cert.Pre_finite_inputs.Decode

open Cert.Pre_finite_inputs Idealize.ShloMosaic Idealize.ShloMosaic.ValueIdx Cert.SoftmaxRow

instance : Subsingleton S_.Idx := ⟨fun a b => funext fun d => d.elim0⟩

/-- The pattern of +∞ denotes the top of the extended reals. -/
theorem ofBits_inf : Ideal.ofBits .f32 0x7F800000#32 = ⊤ := by simp [Ideal.ofBits, Ideal.ieee]

/-- An extended real whose absolute value is below +∞ is a real number. -/
theorem real_of_abs_lt_inf (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

variable [Facts]

/-- Under the precondition every entry of every argument array is a real number. -/
theorem all_real (a0 : FVec Ideal S10000x128 .f32) (a1 : FVec Ideal S10000x10000 .f32) (a2 : FVec Ideal S128x128 .f32)
    (a3 : FVec Ideal S128 .f32) (a4 : FVec Ideal S10x128 .f32) (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i),
    fun i => real_of_abs_lt_inf _ (Host.reduce_andi_all _ _ _ _ _ h4 i)⟩

end Cert.Pre_finite_inputs.Decode

end
-- ==== Proof.lean ====
/-
  The certificate of a graph-convolution layer with a Student-t soft assignment: a kernel against its reference,
  equal as extended reals.

  Both programs compute h = adj·(x·W) + b and, row by row of h, q = the Student-t assignment of the row to ten centres.
  The kernel keeps x·W in a scratch buffer across its 25 grid points, reads adj through two windows of 200 rows on the
  one array, takes the squared distances by expansion of the square |h|² + |mu|² − 2 h·mu with the products on the
  matrix unit, and raises to the power as exp (p · log t). The reference takes sums of squared differences, raises with
  a power, and halves every weight before normalising. On the extended reals, under the precondition that every input
  entry is a real number, the two q agree: the distances are one nonnegative real, so t is a positive real, for which
  t ^ p = exp (log t · p); and the factor 1/2 cancels in the quotient by the row's positive sum (Proof/RowLaw.lean).
  The three frames: each kernel program's by the frame run for windows that share an array (Proof/LibSharedFrame.lean)
  over the body's triples, the reference's by its run. The idealization rewrote nothing, so `preserves` is trivial.
-/
import proofs.«179142_g25975962206949_cont_8to1_1416_17_alg».proof.Defs
import proofs.«179142_g25975962206949_cont_8to1_1416_17_alg».proof.Proof.Gen.Kernel
import proofs.«179142_g25975962206949_cont_8to1_1416_17_alg».proof.Proof.Gen.KernelIdeal
import proofs.«179142_g25975962206949_cont_8to1_1416_17_alg».proof.Proof.Gen.ReferenceIdeal
import proofs.«179142_g25975962206949_cont_8to1_1416_17_alg».proof.Proof.Gen.Pre_finite_inputs
import proofs.«179142_g25975962206949_cont_8to1_1416_17_alg».proof.Proof.BitsFrame
import proofs.«179142_g25975962206949_cont_8to1_1416_17_alg».proof.Proof.IdealValue
import proofs.«179142_g25975962206949_cont_8to1_1416_17_alg».proof.Proof.RefValue
import proofs.«179142_g25975962206949_cont_8to1_1416_17_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs end with h and q equal, entry by entry. -/
theorem algebraic : Cert.algebraic_KernelIdeal_ReferenceIdeal := by
  intro m ρ m' ρ' hpre hagree
  refine ⟨fun c => Cert.Spec.hArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.qArrK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Body.run_value m ρ, ?_⟩
  refine (θ_run Cert.ReferenceIdeal.defs _ _).mono (fun _ h c => ?_) (Cert.ReferenceIdeal.Value.run (F := Ideal) m' ρ')
  obtain ⟨a0, a1, a2, a3, a4⟩ := hagree c
  obtain ⟨r0, r1, r2, r3, r4⟩ := Cert.Pre_finite_inputs.Decode.all_real _ _ _ _ _ (hpre c)
  refine ⟨(h c).1.trans ?_, (h c).2.1.trans ?_, (h c).2.2⟩
  · rw [Cert.ReferenceIdeal.Read.val_main_v4_eq, Cert.ReferenceIdeal.RefValue.refH_eq, a0, a1, a2, a3]
  · rw [Cert.ReferenceIdeal.Read.val_main_v27_eq, Cert.ReferenceIdeal.RefValue.refQ_eq, a0, a1, a2, a3, a4]
    exact (Cert.Spec.qArrK_eq_qArrR r0 r1 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
